-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S2000x64 : Shape := ⟨2, ![2000, 64]⟩
abbrev S2000x1 : Shape := ⟨2, ![2000, 1]⟩
abbrev S1700000x64 : Shape := ⟨2, ![1700000, 64]⟩
abbrev S100000x32 : Shape := ⟨2, ![100000, 32]⟩
abbrev S2000x32 : Shape := ⟨2, ![2000, 32]⟩
abbrev S1x64 : Shape := ⟨2, ![1, 64]⟩
abbrev S1700000x32 : Shape := ⟨2, ![1700000, 32]⟩
abbrev S1x32 : Shape := ⟨2, ![1, 32]⟩

abbrev nBuf : Space → Nat
  | .hbm => 59
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x64, .bf16⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x64, .bf16⟩
  | .hbm, ⟨38, _⟩ => ⟨S1700000x64, .f32⟩
  | .hbm, ⟨39, _⟩ => ⟨S_, .f32⟩
  | .hbm, ⟨40, _⟩ => ⟨S100000x64, .f32⟩
  | .hbm, ⟨41, _⟩ => ⟨S1700000x1, .i32⟩
  | .hbm, ⟨42, _⟩ => ⟨S100000x64, .f32⟩
  | .hbm, ⟨43, _⟩ => ⟨S100000x32, .bf16⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x32, .bf16⟩
  | .hbm, ⟨53, _⟩ => ⟨S1700000x32, .f32⟩
  | .hbm, ⟨54, _⟩ => ⟨S_, .f32⟩
  | .hbm, ⟨55, _⟩ => ⟨S100000x32, .f32⟩
  | .hbm, ⟨56, _⟩ => ⟨S1700000x1, .i32⟩
  | .hbm, ⟨57, _⟩ => ⟨S100000x32, .f32⟩
  | .hbm, ⟨58, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x1, .f32⟩
  | .local _ .vmem, ⟨4, _⟩ => ⟨S2000x1, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S64, .f32⟩
  | .local _ .vmem, ⟨12, _⟩ => ⟨S64x32, .f32⟩
  | .local _ .vmem, ⟨13, _⟩ => ⟨S2000x32, .bf16⟩
  | .local _ .vmem, ⟨14, _⟩ => ⟨S2000x32, .bf16⟩
  | .local _ .vmem, ⟨15, _⟩ => ⟨S2000x32, .f32⟩
  | .local _ .vmem, ⟨16, _⟩ => ⟨S2000x32, .f32⟩
  | .local _ .vmem, ⟨17, _⟩ => ⟨S2000x1, .f32⟩
  | .local _ .vmem, ⟨18, _⟩ => ⟨S2000x1, .f32⟩
  | .local _ .vmem, ⟨19, _⟩ => ⟨S32, .f32⟩
  | .local _ .vmem, ⟨20, _⟩ => ⟨S2000x32, .f32⟩
  | .local _ .vmem, ⟨21, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S2000x64_S2000x64_0_0 : ∀ a, (![0, 0] : Fin 2 → Nat) a + S2000x64.size a ≤ S2000x64.size a
  h_S2000x64 : 0 < S2000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  shapeCasts_S2000x64_S2000x64 : S2000x64.ShapeCasts S2000x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x32_S64x32_0_0 : ∀ a, (![0, 0] : Fin 2 → Nat) a + S64x32.size a ≤ S64x32.size a
  h_S64x32 : 0 < S64x32.numel
  broadcasts_S2000x1_S2000x32 : S2000x1.Broadcasts S2000x32
  inb_S2000x32_S2000x32_0_0 : ∀ a, (![0, 0] : Fin 2 → Nat) a + S2000x32.size a ≤ S2000x32.size a
  h_S2000x32 : 0 < S2000x32.numel
  packedbf16_S2000x32_S2000x32_0_0 : (Rect.unit (s := S2000x32) ![0, 0] S2000x32.size inb_S2000x32_S2000x32_0_0).PackedRows (EltTy.packing .bf16)
  bcast_S_S100000x32 : S_.BroadcastsInDim S100000x32 (![] : Fin 0 → Fin S100000x32.rank)
  shapeCasts_S2000x32_S2000x32 : S2000x32.ShapeCasts S2000x32
  inb_S32_S32_0 : ∀ a, (![0] : Fin 1 → Nat) a + S32.size a ≤ S32.size a
  h_S32 : 0 < S32.numel
  shapeCasts_S32_S1x32 : S32.ShapeCasts S1x32
  broadcasts_S1x32_S2000x32 : S1x32.Broadcasts S2000x32
  scatter_S100000_S1700000x1_S1700000_n_0_0_1_wf : ScatterDims.WF S100000 S1700000x1 S1700000 [] [0] [0] 1
  dot_S2000x64_S64x64_S2000x64_1_0_0_1_n_n_wf : DotDims.WF S2000x64 S64x64 S2000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S2000x64_S64x32_S2000x32_1_0_0_1_n_n_wf : DotDims.WF S2000x64 S64x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .bf16 = 32 ∨ (Rect.block (s := S100000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .bf16 = 32 ∨ (Rect.block (s := S100000x32) S2000x32.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x32.size a ≤ S100000x32.size a
  hwx2_3 : ∀ i : grid2.Coords, EltTy.bits .f32 = 32 ∨ (Rect.block (s := S100000x32) S2000x32.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S2000x64_S64x32_S2000x32_1_0_0_1_n_n : DotDims S2000x64 S64x32 S2000x32 where
  lhsContracting := [1]
  rhsContracting := [0]
  lhsNonContracting := [0]
  rhsNonContracting := [1]
  lhsBatch := []
  rhsBatch := []
  wf := dot_S2000x64_S64x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S2000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run with its result array named.

  The kernel's program is three launches among stretches of host operations. Every weakly fair execution of it
  terminates without a fault, and in the final state the result buffer holds what the last launch's write-backs leave
  of it, the buffer contents being followed boundary by boundary from the launch memory through each stretch of host
  operations and each launch; the six argument arrays end as they were launched.
-/
import proofs.«181443_j16054587753020_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's program terminates, nothing faulting; the result buffer ends at the
    contents the last boundary of the run gives it, and the argument arrays end as launched. -/
theorem run_named : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.KernelWalk.lean ====
/-
  The kernel's buffers, boundary by boundary.

  The kernel's program alternates stretches of host operations with three launches. Followed from the launch memory:
  before the first launch the host computes the edges' sources and destinations, the in-degree and the per-node scale
  written as a column; each launch leaves its output array at what its write-backs hold and every other buffer as it
  was; between launches the host gathers the previous output's rows at the wrapped sources and scatters them to the
  destinations. Each lemma says what one buffer holds at one boundary.
-/
import proofs.«181443_j16054587753020_2_alg».proof.Proof.KernelRun
import Idealize.ShloMosaic.PureOps.Ideal.Laws
import Idealize.ShloMosaic.Lib.ValueIdx

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

/-- The edges' sources: row 0 of the edge array, then the self loops 0 … N − 1. -/
def srcV (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge array, then the self loops. -/
def dstV (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The negative-index wrap: a negative word has N added. -/
def wrapV (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- An index vector written as a [K, 1] column. -/
def colV (v : IVec S1700000 32) : IVec S1700000x1 32 := broadcastInDim S1700000x1 ![0] bcast_S1700000_S1700000x1_0 v

/-- The in-degree: ones scattered to the destinations. -/
def degV (e : IVec S2x1600000 32) : FVec Ideal S100000 .f32 :=
  Host.scatterAdd scatter_S100000_S1700000x1_S1700000_n_0_0_1 (broadcastInDim S100000 ![] bcast_S_S100000 (constant S_ .f32 0x00000000#32)) (colV (dstV e)) (broadcastInDim S1700000 ![] bcast_S_S1700000 (constant S_ .f32 0x3F800000#32))

/-- The per-node scale: the reciprocal root of the degree where it is positive, zero elsewhere. -/
def scaleV (e : IVec S2x1600000 32) : FVec Ideal S100000 .f32 :=
  select (cmpf (F := Ideal) .ogt (degV e) (broadcastInDim S100000 ![] bcast_S_S100000 (constant S_ .f32 0x00000000#32))) (Host.rsqrt (degV e)) (broadcastInDim S100000 ![] bcast_S_S100000 (id (constant S_ .f32 0x00000000#32)))

/-- The scale written as a column. -/
def scaleCol (e : IVec S2x1600000 32) : FVec Ideal S100000x1 .f32 :=
  broadcastInDim S100000x1 ![0] bcast_S100000_S100000x1_0 (scaleV e)

/-- Rows of a [N, 64] array (kept in the narrower format) gathered at the wrapped sources s, widened, and scattered to
    the destinations t into zeros. -/
def agg64 (t s : IVec S1700000 32) (T : FVec Ideal S100000x64 .bf16) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32)) (colV t)
    (extf .f32 (Host.gather gather_S100000x64_S1700000x1_S1700000x64_1_0_n_n_0_1_164 T (colV (wrapV s))) bitsLt_bf16_f32)

/-- The same for a [N, 32] array. -/
def agg32 (t s : IVec S1700000 32) (T : FVec Ideal S100000x32 .bf16) : FVec Ideal S100000x32 .f32 :=
  Host.scatterAdd (F := Ideal) scatter_S100000x32_S1700000x1_S1700000x32_1_0_0_1
    (broadcastInDim S100000x32 ![] bcast_S_S100000x32 (constant (F := Ideal) S_ .f32 0x00000000#32)) (colV t)
    (extf .f32 (Host.gather gather_S100000x32_S1700000x1_S1700000x32_1_0_n_n_0_1_132 T (colV (wrapV s))) bitsLt_bf16_f32)

variable (m : (ℓ : Loc nD τ sig) → Buf (Elt Ideal) ℓ) (ρ : Dev nD → PrngReg) (c : Dev nD)

/-! ## Before the first launch -/

/-! ### After the first stretch: the edges, the degree, the comparison and the reciprocal root -/

theorem W1_v5 : W1 m ρ c (Proc.devRef .tc main_v5) = srcV (m ((c : Thread nD τ).loc main_arg1)) := by
  show StableHlo.after hostOps0 (W0 m ρ c) (Proc.devRef .tc main_v5) = _
  simp only [hostOps0]
  after_results_simp
  rfl

theorem W1_v6 : W1 m ρ c (Proc.devRef .tc main_v6) = dstV (m ((c : Thread nD τ).loc main_arg1)) := by
  show StableHlo.after hostOps0 (W0 m ρ c) (Proc.devRef .tc main_v6) = _
  simp only [hostOps0]
  after_results_simp
  rfl

theorem W1_v12 : W1 m ρ c (Proc.devRef .tc main_v12)
    = cmpf (F := Ideal) .ogt (degV (m ((c : Thread nD τ).loc main_arg1))) (broadcastInDim S100000 ![] bcast_S_S100000 (constant S_ .f32 0x00000000#32)) := by
  show StableHlo.after hostOps0 (W0 m ρ c) (Proc.devRef .tc main_v12) = _
  simp only [hostOps0]
  after_results_simp
  rfl

theorem W1_v13 : W1 m ρ c (Proc.devRef .tc main_v13) = Host.rsqrt (degV (m ((c : Thread nD τ).loc main_arg1))) := by
  show StableHlo.after hostOps0 (W0 m ρ c) (Proc.devRef .tc main_v13) = _
  simp only [hostOps0]
  after_results_simp
  rfl

theorem W1_cst_2 : W1 m ρ c (Proc.devRef .tc main_cst_2) = constant (F := Ideal) S_ .f32 0x00000000#32 := by
  show StableHlo.after hostOps0 (W0 m ρ c) (Proc.devRef .tc main_cst_2) = _
  simp only [hostOps0]
  after_results_simp

theorem W1_arg0 : W1 m ρ c (Proc.devRef .tc main_arg0) = m ((c : Thread nD τ).loc main_arg0) := by
  show StableHlo.after hostOps0 (W0 m ρ c) (Proc.devRef .tc main_arg0) = _
  simp only [hostOps0]
  after_results_simp

theorem W1_arg2 : W1 m ρ c (Proc.devRef .tc main_arg2) = m ((c : Thread nD τ).loc main_arg2) := by
  show StableHlo.after hostOps0 (W0 m ρ c) (Proc.devRef .tc main_arg2) = _
  simp only [hostOps0]
  after_results_simp

theorem W1_arg3 : W1 m ρ c (Proc.devRef .tc main_arg3) = m ((c : Thread nD τ).loc main_arg3) := by
  show StableHlo.after hostOps0 (W0 m ρ c) (Proc.devRef .tc main_arg3) = _
  simp only [hostOps0]
  after_results_simp

theorem W1_arg4 : W1 m ρ c (Proc.devRef .tc main_arg4) = m ((c : Thread nD τ).loc main_arg4) := by
  show StableHlo.after hostOps0 (W0 m ρ c) (Proc.devRef .tc main_arg4) = _
  simp only [hostOps0]
  after_results_simp

theorem W1_arg5 : W1 m ρ c (Proc.devRef .tc main_arg5) = m ((c : Thread nD τ).loc main_arg5) := by
  show StableHlo.after hostOps0 (W0 m ρ c) (Proc.devRef .tc main_arg5) = _
  simp only [hostOps0]
  after_results_simp

/-! ### After the selection: the scale -/

theorem W2_v14 : W2 m ρ c (Proc.devRef .tc main_v14) = scaleV (m ((c : Thread nD τ).loc main_arg1)) := by
  have h : W2 m ρ c (Proc.devRef .tc main_v14)
      = select (W1 m ρ c (Proc.devRef .tc main_v12)) (W1 m ρ c (Proc.devRef .tc main_v13))
          (broadcastInDim S100000 ![] bcast_S_S100000 (id (W1 m ρ c (Proc.devRef .tc main_cst_2)))) := by
    show StableHlo.after hostOps0_1 (StableHlo.after hostOps0 (W0 m ρ c)) (Proc.devRef .tc main_v14)
      = select (StableHlo.after hostOps0 (W0 m ρ c) (Proc.devRef .tc main_v12)) (StableHlo.after hostOps0 (W0 m ρ c) (Proc.devRef .tc main_v13))
          (broadcastInDim S100000 ![] bcast_S_S100000 (id (StableHlo.after hostOps0 (W0 m ρ c) (Proc.devRef .tc main_cst_2))))
    generalize StableHlo.after hostOps0 (W0 m ρ c) = U
    simp only [hostOps0_1]
    after_results_simp
    rfl
  rw [h, W1_v12, W1_v13, W1_cst_2]
  rfl

theorem W2_v5 : W2 m ρ c (Proc.devRef .tc main_v5) = W1 m ρ c (Proc.devRef .tc main_v5) := by
  show StableHlo.after hostOps0_1 (StableHlo.after hostOps0 (W0 m ρ c)) (Proc.devRef .tc main_v5) = StableHlo.after hostOps0 (W0 m ρ c) (Proc.devRef .tc main_v5)
  generalize StableHlo.after hostOps0 (W0 m ρ c) = U
  simp only [hostOps0_1]
  after_results_simp

theorem W2_v6 : W2 m ρ c (Proc.devRef .tc main_v6) = W1 m ρ c (Proc.devRef .tc main_v6) := by
  show StableHlo.after hostOps0_1 (StableHlo.after hostOps0 (W0 m ρ c)) (Proc.devRef .tc main_v6) = StableHlo.after hostOps0 (W0 m ρ c) (Proc.devRef .tc main_v6)
  generalize StableHlo.after hostOps0 (W0 m ρ c) = U
  simp only [hostOps0_1]
  after_results_simp

theorem W2_arg0 : W2 m ρ c (Proc.devRef .tc main_arg0) = W1 m ρ c (Proc.devRef .tc main_arg0) := by
  show StableHlo.after hostOps0_1 (StableHlo.after hostOps0 (W0 m ρ c)) (Proc.devRef .tc main_arg0) = StableHlo.after hostOps0 (W0 m ρ c) (Proc.devRef .tc main_arg0)
  generalize StableHlo.after hostOps0 (W0 m ρ c) = U
  simp only [hostOps0_1]
  after_results_simp

theorem W2_arg2 : W2 m ρ c (Proc.devRef .tc main_arg2) = W1 m ρ c (Proc.devRef .tc main_arg2) := by
  show StableHlo.after hostOps0_1 (StableHlo.after hostOps0 (W0 m ρ c)) (Proc.devRef .tc main_arg2) = StableHlo.after hostOps0 (W0 m ρ c) (Proc.devRef .tc main_arg2)
  generalize StableHlo.after hostOps0 (W0 m ρ c) = U
  simp only [hostOps0_1]
  after_results_simp

theorem W2_arg3 : W2 m ρ c (Proc.devRef .tc main_arg3) = W1 m ρ c (Proc.devRef .tc main_arg3) := by
  show StableHlo.after hostOps0_1 (StableHlo.after hostOps0 (W0 m ρ c)) (Proc.devRef .tc main_arg3) = StableHlo.after hostOps0 (W0 m ρ c) (Proc.devRef .tc main_arg3)
  generalize StableHlo.after hostOps0 (W0 m ρ c) = U
  simp only [hostOps0_1]
  after_results_simp

theorem W2_arg4 : W2 m ρ c (Proc.devRef .tc main_arg4) = W1 m ρ c (Proc.devRef .tc main_arg4) := by
  show StableHlo.after hostOps0_1 (StableHlo.after hostOps0 (W0 m ρ c)) (Proc.devRef .tc main_arg4) = StableHlo.after hostOps0 (W0 m ρ c) (Proc.devRef .tc main_arg4)
  generalize StableHlo.after hostOps0 (W0 m ρ c) = U
  simp only [hostOps0_1]
  after_results_simp

theorem W2_arg5 : W2 m ρ c (Proc.devRef .tc main_arg5) = W1 m ρ c (Proc.devRef .tc main_arg5) := by
  show StableHlo.after hostOps0_1 (StableHlo.after hostOps0 (W0 m ρ c)) (Proc.devRef .tc main_arg5) = StableHlo.after hostOps0 (W0 m ρ c) (Proc.devRef .tc main_arg5)
  generalize StableHlo.after hostOps0 (W0 m ρ c) = U
  simp only [hostOps0_1]
  after_results_simp

/-! ### The scale written as a column -/

theorem W3_v15 : W3 m ρ c (Proc.devRef .tc main_v15) = scaleCol (m ((c : Thread nD τ).loc main_arg1)) := by
  have h : W3 m ρ c (Proc.devRef .tc main_v15)
      = broadcastInDim S100000x1 ![0] bcast_S100000_S100000x1_0 (W2 m ρ c (Proc.devRef .tc main_v14)) := by
    show StableHlo.after hostOps0_2 (StableHlo.after hostOps0_1 (StableHlo.after hostOps0 (W0 m ρ c))) (Proc.devRef .tc main_v15)
      = broadcastInDim S100000x1 ![0] bcast_S100000_S100000x1_0 (StableHlo.after hostOps0_1 (StableHlo.after hostOps0 (W0 m ρ c)) (Proc.devRef .tc main_v14))
    generalize StableHlo.after hostOps0_1 (StableHlo.after hostOps0 (W0 m ρ c)) = U
    simp only [hostOps0_2]
    after_results_simp
  rw [h, W2_v14]
  rfl

theorem W3_v5' : W3 m ρ c (Proc.devRef .tc main_v5) = W2 m ρ c (Proc.devRef .tc main_v5) := by
  show StableHlo.after hostOps0_2 (StableHlo.after hostOps0_1 (StableHlo.after hostOps0 (W0 m ρ c))) (Proc.devRef .tc main_v5) = StableHlo.after hostOps0_1 (StableHlo.after hostOps0 (W0 m ρ c)) (Proc.devRef .tc main_v5)
  generalize StableHlo.after hostOps0_1 (StableHlo.after hostOps0 (W0 m ρ c)) = U
  simp only [hostOps0_2]
  after_results_simp

theorem W3_v6' : W3 m ρ c (Proc.devRef .tc main_v6) = W2 m ρ c (Proc.devRef .tc main_v6) := by
  show StableHlo.after hostOps0_2 (StableHlo.after hostOps0_1 (StableHlo.after hostOps0 (W0 m ρ c))) (Proc.devRef .tc main_v6) = StableHlo.after hostOps0_1 (StableHlo.after hostOps0 (W0 m ρ c)) (Proc.devRef .tc main_v6)
  generalize StableHlo.after hostOps0_1 (StableHlo.after hostOps0 (W0 m ρ c)) = U
  simp only [hostOps0_2]
  after_results_simp

theorem W3_arg0' : W3 m ρ c (Proc.devRef .tc main_arg0) = W2 m ρ c (Proc.devRef .tc main_arg0) := by
  show StableHlo.after hostOps0_2 (StableHlo.after hostOps0_1 (StableHlo.after hostOps0 (W0 m ρ c))) (Proc.devRef .tc main_arg0) = StableHlo.after hostOps0_1 (StableHlo.after hostOps0 (W0 m ρ c)) (Proc.devRef .tc main_arg0)
  generalize StableHlo.after hostOps0_1 (StableHlo.after hostOps0 (W0 m ρ c)) = U
  simp only [hostOps0_2]
  after_results_simp

theorem W3_arg2' : W3 m ρ c (Proc.devRef .tc main_arg2) = W2 m ρ c (Proc.devRef .tc main_arg2) := by
  show StableHlo.after hostOps0_2 (StableHlo.after hostOps0_1 (StableHlo.after hostOps0 (W0 m ρ c))) (Proc.devRef .tc main_arg2) = StableHlo.after hostOps0_1 (StableHlo.after hostOps0 (W0 m ρ c)) (Proc.devRef .tc main_arg2)
  generalize StableHlo.after hostOps0_1 (StableHlo.after hostOps0 (W0 m ρ c)) = U
  simp only [hostOps0_2]
  after_results_simp

theorem W3_arg3' : W3 m ρ c (Proc.devRef .tc main_arg3) = W2 m ρ c (Proc.devRef .tc main_arg3) := by
  show StableHlo.after hostOps0_2 (StableHlo.after hostOps0_1 (StableHlo.after hostOps0 (W0 m ρ c))) (Proc.devRef .tc main_arg3) = StableHlo.after hostOps0_1 (StableHlo.after hostOps0 (W0 m ρ c)) (Proc.devRef .tc main_arg3)
  generalize StableHlo.after hostOps0_1 (StableHlo.after hostOps0 (W0 m ρ c)) = U
  simp only [hostOps0_2]
  after_results_simp

theorem W3_arg4' : W3 m ρ c (Proc.devRef .tc main_arg4) = W2 m ρ c (Proc.devRef .tc main_arg4) := by
  show StableHlo.after hostOps0_2 (StableHlo.after hostOps0_1 (StableHlo.after hostOps0 (W0 m ρ c))) (Proc.devRef .tc main_arg4) = StableHlo.after hostOps0_1 (StableHlo.after hostOps0 (W0 m ρ c)) (Proc.devRef .tc main_arg4)
  generalize StableHlo.after hostOps0_1 (StableHlo.after hostOps0 (W0 m ρ c)) = U
  simp only [hostOps0_2]
  after_results_simp

theorem W3_arg5' : W3 m ρ c (Proc.devRef .tc main_arg5) = W2 m ρ c (Proc.devRef .tc main_arg5) := by
  show StableHlo.after hostOps0_2 (StableHlo.after hostOps0_1 (StableHlo.after hostOps0 (W0 m ρ c))) (Proc.devRef .tc main_arg5) = StableHlo.after hostOps0_1 (StableHlo.after hostOps0 (W0 m ρ c)) (Proc.devRef .tc main_arg5)
  generalize StableHlo.after hostOps0_1 (StableHlo.after hostOps0 (W0 m ρ c)) = U
  simp only [hostOps0_2]
  after_results_simp

theorem W3_v5 : W3 m ρ c (Proc.devRef .tc main_v5) = srcV (m ((c : Thread nD τ).loc main_arg1)) :=
  (W3_v5' m ρ c).trans ((W2_v5 m ρ c).trans (W1_v5 m ρ c))
theorem W3_v6 : W3 m ρ c (Proc.devRef .tc main_v6) = dstV (m ((c : Thread nD τ).loc main_arg1)) :=
  (W3_v6' m ρ c).trans ((W2_v6 m ρ c).trans (W1_v6 m ρ c))
theorem W3_arg0 : W3 m ρ c (Proc.devRef .tc main_arg0) = m ((c : Thread nD τ).loc main_arg0) :=
  (W3_arg0' m ρ c).trans ((W2_arg0 m ρ c).trans (W1_arg0 m ρ c))
theorem W3_arg2 : W3 m ρ c (Proc.devRef .tc main_arg2) = m ((c : Thread nD τ).loc main_arg2) :=
  (W3_arg2' m ρ c).trans ((W2_arg2 m ρ c).trans (W1_arg2 m ρ c))
theorem W3_arg3 : W3 m ρ c (Proc.devRef .tc main_arg3) = m ((c : Thread nD τ).loc main_arg3) :=
  (W3_arg3' m ρ c).trans ((W2_arg3 m ρ c).trans (W1_arg3 m ρ c))
theorem W3_arg4 : W3 m ρ c (Proc.devRef .tc main_arg4) = m ((c : Thread nD τ).loc main_arg4) :=
  (W3_arg4' m ρ c).trans ((W2_arg4 m ρ c).trans (W1_arg4 m ρ c))
theorem W3_arg5 : W3 m ρ c (Proc.devRef .tc main_arg5) = m ((c : Thread nD τ).loc main_arg5) :=
  (W3_arg5' m ρ c).trans ((W2_arg5 m ρ c).trans (W1_arg5 m ρ c))

/-! ## After the first launch -/

theorem W4_v16 : W4 m ρ c (Proc.devRef .tc main_v16) = (dat0 (V3 m ρ) c).arrAt 3 cfg0.N := W4_arr m ρ c 3

theorem W4_v15 : W4 m ρ c (Proc.devRef .tc main_v15) = W3 m ρ c (Proc.devRef .tc main_v15) :=
  (W4_arr m ρ c 2).trans (((dat0 (V3 m ρ) c).arrAt_in 2 rfl _).trans (A_eq0 (V3 m ρ) c 2))

theorem W4_v5 : W4 m ρ c (Proc.devRef .tc main_v5) = W3 m ρ c (Proc.devRef .tc main_v5) := W4_of_ne m ρ c main_v5 (by decide)
theorem W4_v6 : W4 m ρ c (Proc.devRef .tc main_v6) = W3 m ρ c (Proc.devRef .tc main_v6) := W4_of_ne m ρ c main_v6 (by decide)
theorem W4_arg3 : W4 m ρ c (Proc.devRef .tc main_arg3) = W3 m ρ c (Proc.devRef .tc main_arg3) := W4_of_ne m ρ c main_arg3 (by decide)
theorem W4_arg4 : W4 m ρ c (Proc.devRef .tc main_arg4) = W3 m ρ c (Proc.devRef .tc main_arg4) := W4_of_ne m ρ c main_arg4 (by decide)
theorem W4_arg5 : W4 m ρ c (Proc.devRef .tc main_arg5) = W3 m ρ c (Proc.devRef .tc main_arg5) := W4_of_ne m ρ c main_arg5 (by decide)

/-! ## Before the second launch -/

theorem W5_v27 : W5 m ρ c (Proc.devRef .tc main_v27)
    = agg64 (W4 m ρ c (Proc.devRef .tc main_v6)) (W4 m ρ c (Proc.devRef .tc main_v5)) (W4 m ρ c (Proc.devRef .tc main_v16)) := by
  show StableHlo.after hostOps1 (W4 m ρ c) (Proc.devRef .tc main_v27) = _
  simp only [hostOps1]
  after_results_simp
  rfl

theorem W5_v5 : W5 m ρ c (Proc.devRef .tc main_v5) = W4 m ρ c (Proc.devRef .tc main_v5) := by
  show StableHlo.after hostOps1 (W4 m ρ c) (Proc.devRef .tc main_v5) = _
  simp only [hostOps1]
  after_results_simp

theorem W5_v6 : W5 m ρ c (Proc.devRef .tc main_v6) = W4 m ρ c (Proc.devRef .tc main_v6) := by
  show StableHlo.after hostOps1 (W4 m ρ c) (Proc.devRef .tc main_v6) = _
  simp only [hostOps1]
  after_results_simp

theorem W5_v15 : W5 m ρ c (Proc.devRef .tc main_v15) = W4 m ρ c (Proc.devRef .tc main_v15) := by
  show StableHlo.after hostOps1 (W4 m ρ c) (Proc.devRef .tc main_v15) = _
  simp only [hostOps1]
  after_results_simp

theorem W5_arg3 : W5 m ρ c (Proc.devRef .tc main_arg3) = W4 m ρ c (Proc.devRef .tc main_arg3) := by
  show StableHlo.after hostOps1 (W4 m ρ c) (Proc.devRef .tc main_arg3) = _
  simp only [hostOps1]
  after_results_simp

theorem W5_arg4 : W5 m ρ c (Proc.devRef .tc main_arg4) = W4 m ρ c (Proc.devRef .tc main_arg4) := by
  show StableHlo.after hostOps1 (W4 m ρ c) (Proc.devRef .tc main_arg4) = _
  simp only [hostOps1]
  after_results_simp

theorem W5_arg5 : W5 m ρ c (Proc.devRef .tc main_arg5) = W4 m ρ c (Proc.devRef .tc main_arg5) := by
  show StableHlo.after hostOps1 (W4 m ρ c) (Proc.devRef .tc main_arg5) = _
  simp only [hostOps1]
  after_results_simp

/-! ## After the second launch -/

theorem W6_v28 : W6 m ρ c (Proc.devRef .tc main_v28) = (dat1 (V5 m ρ) c).arrAt 4 cfg1.N := W6_arr m ρ c 4

theorem W6_v15 : W6 m ρ c (Proc.devRef .tc main_v15) = W5 m ρ c (Proc.devRef .tc main_v15) :=
  (W6_arr m ρ c 1).trans (((dat1 (V5 m ρ) c).arrAt_in 1 rfl _).trans (A_eq1 (V5 m ρ) c 1))

theorem W6_v5 : W6 m ρ c (Proc.devRef .tc main_v5) = W5 m ρ c (Proc.devRef .tc main_v5) := W6_of_ne m ρ c main_v5 (by decide)
theorem W6_v6 : W6 m ρ c (Proc.devRef .tc main_v6) = W5 m ρ c (Proc.devRef .tc main_v6) := W6_of_ne m ρ c main_v6 (by decide)
theorem W6_arg5 : W6 m ρ c (Proc.devRef .tc main_arg5) = W5 m ρ c (Proc.devRef .tc main_arg5) := W6_of_ne m ρ c main_arg5 (by decide)

/-! ## Before the third launch -/

theorem W7_v39 : W7 m ρ c (Proc.devRef .tc main_v39)
    = agg32 (W6 m ρ c (Proc.devRef .tc main_v6)) (W6 m ρ c (Proc.devRef .tc main_v5)) (W6 m ρ c (Proc.devRef .tc main_v28)) := by
  show StableHlo.after hostOps2 (W6 m ρ c) (Proc.devRef .tc main_v39) = _
  simp only [hostOps2]
  after_results_simp
  rfl

theorem W7_v15 : W7 m ρ c (Proc.devRef .tc main_v15) = W6 m ρ c (Proc.devRef .tc main_v15) := by
  show StableHlo.after hostOps2 (W6 m ρ c) (Proc.devRef .tc main_v15) = _
  simp only [hostOps2]
  after_results_simp

theorem W7_arg5 : W7 m ρ c (Proc.devRef .tc main_arg5) = W6 m ρ c (Proc.devRef .tc main_arg5) := by
  show StableHlo.after hostOps2 (W6 m ρ c) (Proc.devRef .tc main_arg5) = _
  simp only [hostOps2]
  after_results_simp

/-! ## After the third launch -/

theorem W8_v40 : W8 m ρ c (Proc.devRef .tc main_v40) = (dat2 (V7 m ρ) c).arrAt 3 cfg2.N := W8_arr m ρ c 3

/-! ## What each launch finds, in terms of the arguments -/

theorem V3_v15 : V3 m ρ c main_v15 = scaleCol (m ((c : Thread nD τ).loc main_arg1)) := W3_v15 m ρ c
theorem V3_arg0 : V3 m ρ c main_arg0 = m ((c : Thread nD τ).loc main_arg0) := W3_arg0 m ρ c
theorem V3_arg2 : V3 m ρ c main_arg2 = m ((c : Thread nD τ).loc main_arg2) := W3_arg2 m ρ c

theorem V5_v15 : V5 m ρ c main_v15 = scaleCol (m ((c : Thread nD τ).loc main_arg1)) :=
  (W5_v15 m ρ c).trans ((W4_v15 m ρ c).trans (W3_v15 m ρ c))
theorem V5_arg3 : V5 m ρ c main_arg3 = m ((c : Thread nD τ).loc main_arg3) :=
  (W5_arg3 m ρ c).trans ((W4_arg3 m ρ c).trans (W3_arg3 m ρ c))
theorem V5_arg4 : V5 m ρ c main_arg4 = m ((c : Thread nD τ).loc main_arg4) :=
  (W5_arg4 m ρ c).trans ((W4_arg4 m ρ c).trans (W3_arg4 m ρ c))
theorem V5_v27 : V5 m ρ c main_v27
    = agg64 (dstV (m ((c : Thread nD τ).loc main_arg1))) (srcV (m ((c : Thread nD τ).loc main_arg1))) ((dat0 (V3 m ρ) c).arrAt 3 cfg0.N) := by
  refine (W5_v27 m ρ c).trans ?_
  rw [W4_v6, W3_v6, W4_v5, W3_v5, W4_v16]

theorem V7_v15 : V7 m ρ c main_v15 = scaleCol (m ((c : Thread nD τ).loc main_arg1)) :=
  (W7_v15 m ρ c).trans ((W6_v15 m ρ c).trans (V5_v15 m ρ c))
theorem V7_arg5 : V7 m ρ c main_arg5 = m ((c : Thread nD τ).loc main_arg5) :=
  (W7_arg5 m ρ c).trans ((W6_arg5 m ρ c).trans ((W5_arg5 m ρ c).trans ((W4_arg5 m ρ c).trans (W3_arg5 m ρ c))))
theorem V7_v39 : V7 m ρ c main_v39
    = agg32 (dstV (m ((c : Thread nD τ).loc main_arg1))) (srcV (m ((c : Thread nD τ).loc main_arg1))) ((dat1 (V5 m ρ) c).arrAt 4 cfg1.N) := by
  refine (W7_v39 m ρ c).trans ?_
  rw [W6_v6, W5_v6, W4_v6, W3_v6, W6_v5, W5_v5, W4_v5, W3_v5, W6_v28]

end Cert.KernelIdeal.Walk

end
-- ==== Proof.LibDense.lean ====
/-
  A plain matrix product read as rows times columns.

  A dot whose dimension numbers contract the left operand's columns with the right operand's rows, with no batch
  axis, sends an `[n, K]` array and a `[K, h]` array to the `[n, h]` array whose entry `(e, q)` is the sum over `k` of
  `left (e, k) · right (k, q)`. The dimension numbers enter only through four facts about where the dot reads its
  operands (`hl0`, `hl1`, `hr0`, `hr1`), which a given record of dimension numbers decides; at the exact
  extended-real values the kernel's product into a zero accumulator and the host's product are both that sum,
  whatever format the operands were rounded to on the way in.
-/
import Idealize.ShloMosaic.PureOps.Ideal.Laws
import Idealize.ShloMosaic.Lib.ValueIdx

namespace Idealize.ShloMosaic.ValueIdx

/-- The contraction position's one coordinate, re-indexed by `Fin K`: the operands' indices at output `(e, q)` and
    position `k` are `(e, k)` and `(k, q)`. -/
theorem plainDot_indices {n K h : Nat} (D : DotDims ⟨2, ![n, K]⟩ ⟨2, ![K, h]⟩ ⟨2, ![n, h]⟩)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (e : Fin n) (q : Fin h) (k : Fin K) :
    D.lhsIdx (ix2 e q) ((contrEquiv1 D K hr hs).symm k) = ix2 e k
    ∧ D.rhsIdx (ix2 e q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's product into the zero accumulator, at `(e, q)`: the sum over `k` of `a (e, k) · w (k, q)`. -/
theorem matmul_zero_plain_apply {n K h : Nat} {φ₁ φ₂ : FTy} (D : DotDims ⟨2, ![n, K]⟩ ⟨2, ![K, h]⟩ ⟨2, ![n, h]⟩)
    (prec : Option ContractPrecision)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.matmul D prec a w (constant ⟨2, ![n, h]⟩ .f32 0x00000000#32) (ix2 e q) = ∑ k : Fin K, a (ix2 e k) * w (ix2 k q) := by
  rw [Ideal.matmul_constant_zero_apply, ← Equiv.sum_comp (contrEquiv1 D K hr hs).symm]
  refine Finset.sum_congr rfl fun k _ => ?_
  obtain ⟨el, er⟩ := plainDot_indices D hr hs hl0 hl1 hr0 hr1 e q k
  rw [el, er]

/-- The host's product, at `(e, q)`: the same sum. -/
theorem dotGeneral_plain_apply {n K h : Nat} {φ₁ φ₂ : FTy} (D : DotDims ⟨2, ![n, K]⟩ ⟨2, ![K, h]⟩ ⟨2, ![n, h]⟩)
    (prec : Option ContractPrecision) (sched : HostSchedule)
    (hr : D.contr.rank = 1) (hs : D.contr.size ⟨0, by omega⟩ = K)
    (hl0 : ∀ (i : (⟨2, ![n, h]⟩ : Shape).Idx) (k : D.contr.Idx), (D.lhsIdx i k 0).val = (i 0).val)
    (hl1 : ∀ (i : (⟨2, ![n, h]⟩ : Shape).Idx) (k : D.contr.Idx), (D.lhsIdx i k 1).val = (k ⟨0, by omega⟩).val)
    (hr0 : ∀ (i : (⟨2, ![n, h]⟩ : Shape).Idx) (k : D.contr.Idx), (D.rhsIdx i k 0).val = (k ⟨0, by omega⟩).val)
    (hr1 : ∀ (i : (⟨2, ![n, h]⟩ : Shape).Idx) (k : D.contr.Idx), (D.rhsIdx i k 1).val = (i 1).val)
    (a : FVec Ideal ⟨2, ![n, K]⟩ φ₁) (w : FVec Ideal ⟨2, ![K, h]⟩ φ₂) (e : Fin n) (q : Fin h) :
    FloatOps.dotGeneral D prec sched a w (ix2 e q) = ∑ k : Fin K, a (ix2 e k) * w (ix2 k q) := by
  rw [Ideal.dotGeneral_apply, ← Equiv.sum_comp (contrEquiv1 D K hr hs).symm]
  refine Finset.sum_congr rfl fun k _ => ?_
  obtain ⟨el, er⟩ := plainDot_indices D hr hs hl0 hl1 hr0 hr1 e q k
  rw [el, er]

end Idealize.ShloMosaic.ValueIdx
-- ==== Proof.Region0.lean ====
/-
  The first launch's output array, element by element.

  The launch walks 50 grid points; point `t` stages rows `2000 t … 2000 t + 1999` of a `[100000, 64]` array and of a
  `[100000, 1]` column of row scales, together with a `[64, 64]` weight matrix that stays in place, and writes back the
  block whose entry `(r, q)` is `(∑ k, x (r, k) · w (k, q)) · s (r, 0)`. The 50 blocks tile the output, so after the last
  point the output array holds, at `(p, q)`, row `p` of the first array times column `q` of the weights, summed over the
  64 inner positions, times row `p`'s scale — whatever the three arrays held when the launch began.
-/
import proofs.«181443_j16054587753020_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«181443_j16054587753020_2_alg».proof.Proof.LibDense

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

namespace Region0

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `r`, column `q` of a block: row `r` of the left block times column `q` of the weights,
    summed over the 64 inner positions, times the row's scale. -/
theorem payload_apply (x0 : Vec Ideal S2000x64 .f32) (x1 : Vec Ideal S64x64 .f32) (x2 : Vec Ideal S2000x1 .f32)
    (r : Fin 2000) (q : Fin 64) :
    k0_pay1 x0 x1 x2 (ix2 r q) = (∑ k : Fin 64, x0 (ix2 r k) * x1 (ix2 k q)) * x2 (ix2 r 0) := by
  unfold k0_pay1
  rw [truncf_apply, mulf_apply, shapeCast_self, broadcastTo_a1_ab_apply]
  refine congrArg (· * x2 (ix2 r 0)) ?_
  exact matmul_zero_plain_apply dot_S2000x64_S64x64_S2000x64_1_0_0_1_n_n none rfl rfl (fun _ _ => rfl) (fun _ _ => rfl)
    (fun _ _ => rfl) (fun _ _ => rfl) _ _ r q

/-- The whole output array as one function of the three arrays the launch reads: entry `(p, q)` is
    `(∑ k, a0 (p, k) * a1 (k, q)) * a2 (p, 0)`. -/
abbrev whole (a0 : S100000x64.Idx → EReal) (a1 : S64x64.Idx → EReal) (a2 : S100000x1.Idx → EReal) : S100000x64.Idx → EReal :=
  fun i => (∑ k : Fin 64, a0 (ix2 (⟨(i 0).val, idx2_lt0 i⟩ : Fin 100000) k) * a1 (ix2 k (⟨(i 1).val, idx2_lt1 i⟩ : Fin 64)))
    * a2 (ix2 (⟨(i 0).val, idx2_lt0 i⟩ : Fin 100000) (0 : Fin 1))

/-- One element: if the three blocks hold, at the places the body reads for block index `j`, what the three arrays hold at
    the places `whole` reads for array index `i`, the body's result at `j` is `whole` at `i`. -/
theorem point_eq (x0 : Vec Ideal S2000x64 .f32) (x1 : Vec Ideal S64x64 .f32) (x2 : Vec Ideal S2000x1 .f32)
    (a0 : S100000x64.Idx → EReal) (a1 : S64x64.Idx → EReal) (a2 : S100000x1.Idx → EReal)
    (j : S2000x64.Idx) (i : S100000x64.Idx)
    (h0 : ∀ k : Fin 64, x0 (ix2 (⟨(j 0).val, idx2_lt0 j⟩ : Fin 2000) k) = a0 (ix2 (⟨(i 0).val, idx2_lt0 i⟩ : Fin 100000) k))
    (h1 : ∀ k : Fin 64, x1 (ix2 k (⟨(j 1).val, idx2_lt1 j⟩ : Fin 64)) = a1 (ix2 k (⟨(i 1).val, idx2_lt1 i⟩ : Fin 64)))
    (h2 : x2 (ix2 (⟨(j 0).val, idx2_lt0 j⟩ : Fin 2000) (0 : Fin 1)) = a2 (ix2 (⟨(i 0).val, idx2_lt0 i⟩ : Fin 100000) (0 : Fin 1))) :
    k0_pay1 x0 x1 x2 j = whole a0 a1 a2 i := by
  obtain ⟨r, q, rfl⟩ : ∃ (r : Fin 2000) (q : Fin 64), j = ix2 r q := ⟨j 0, j 1, eq_ix2 j⟩
  rw [payload_apply]
  exact congrArg₂ (· * ·) (Finset.sum_congr rfl fun k _ => congrArg₂ (· * ·) (h0 k) (h1 k)) h2

theorem zero2 : (![0, 0] : Fin 2 → Nat) = fun _ => 0 := funext fun a => by fin_cases a <;> rfl

/-- The index maps over the 50 grid points: the left and scale windows move with the output window along the rows, the
    weight window stays, and the output's block index is the point's number on the rows and zero on the columns. -/
theorem index_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What grid point `t` writes back is block `t` of `whole` of the arrays as the launch finds them. -/
theorem flushed_eq (c : Dev nD) (t : Fin cfg0.N) :
    (dat0 V c).flushed 3 t
      = ((cfg0.win 3).blk t).view.read (Elt Ideal) (whole (V c main_arg0) (V c main_arg2) (V c main_v15)) := by
  show (cfg0.win 3).cut (grid0.coords t) ((dat0 V c).after 3 t) = _
  rw [after0_3]
  unfold out0_3
  rw [View.canon_unit_zero zero2]
  simp only [View.ld_unit_zero (S := S2000x64) zero2, View.ld_unit_zero (S := S64x64) zero2,
    View.ld_unit_zero (S := S2000x1) zero2]
  obtain ⟨e0, e1, e2, e3, e4, e5, e6, e7⟩ := index_facts t
  refine funext fun j => ?_
  show k0_pay1 (iblk0 V c 0 t) (iblk0 V c 1 t) (iblk0 V c 2 t) ((cfg0.win 3).xinj (grid0.coords t) j)
      = whole (V c main_arg0) (V c main_arg2) (V c main_v15) (((cfg0.win 3).blk t).view.emb j)
  refine point_eq _ _ _ _ _ _ _ _ (fun k => ?_) (fun k => ?_) ?_
  · show V c main_arg0 (((cfg0.win 0).blk t).view.emb (ix2 (⟨(j 0).val, _⟩ : Fin 2000) k))
        = V c main_arg0 (ix2 (⟨((((cfg0.win 3).blk t).view.emb j) 0).val, _⟩ : Fin 100000) k)
    refine congrArg _ (funext fun a => Fin.ext ?_)
    match a with
    | ⟨0, _⟩ =>
      show win0_0.index t (0 : Fin 2) * 2000 + 1 * (j 0).val = win0_3.index t (0 : Fin 2) * 2000 + 1 * (j 0).val
      omega
    | ⟨1, _⟩ =>
      show win0_0.index t (1 : Fin 2) * 64 + 1 * k.val = k.val
      omega
  · show V c main_arg2 (((cfg0.win 1).blk t).view.emb (ix2 k (⟨(j 1).val, _⟩ : Fin 64)))
        = V c main_arg2 (ix2 k (⟨((((cfg0.win 3).blk t).view.emb j) 1).val, _⟩ : Fin 64))
    refine congrArg _ (funext fun a => Fin.ext ?_)
    match a with
    | ⟨0, _⟩ =>
      show win0_1.index t (0 : Fin 2) * 64 + 1 * k.val = k.val
      omega
    | ⟨1, _⟩ =>
      show win0_1.index t (1 : Fin 2) * 64 + 1 * (j 1).val = win0_3.index t (1 : Fin 2) * 64 + 1 * (j 1).val
      omega
  · show V c main_v15 (((cfg0.win 2).blk t).view.emb (ix2 (⟨(j 0).val, _⟩ : Fin 2000) (0 : Fin 1)))
        = V c main_v15 (ix2 (⟨((((cfg0.win 3).blk t).view.emb j) 0).val, _⟩ : Fin 100000) (0 : Fin 1))
    refine congrArg _ (funext fun a => Fin.ext ?_)
    match a with
    | ⟨0, _⟩ =>
      show win0_2.index t (0 : Fin 2) * 2000 + 1 * (j 0).val = win0_3.index t (0 : Fin 2) * 2000 + 1 * (j 0).val
      omega
    | ⟨1, _⟩ =>
      show win0_2.index t (1 : Fin 2) * 1 + 1 * 0 = 0
      omega

/-- An index of the array is in point `t`'s block iff each coordinate is in the block's range on its axis. -/
theorem mem_blk (t : Fin cfg0.N) (i : S100000x64.Idx) :
    i ∈ ((cfg0.win 3).blk t).view.set ↔ ∀ a : Fin 2, win0_3.index t a * S2000x64.size a ≤ (i a).val
      ∧ (i a).val < win0_3.index t a * S2000x64.size a + S2000x64.size a := by
  show i ∈ ((View.whole main_v16).slice (win0_3.rect t)).set ↔ _
  rw [View.set_slice_whole, Rect.mem_set_unit]
  exact Iff.rfl

/-- Every index of the array is in the block of the point numbered by its row divided by 2000. -/
theorem cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ : ∃ t : Fin cfg0.N, t.val = (i 0).val / 2000 :=
    ⟨⟨(i 0).val / 2000, by show (i 0).val / 2000 < grid0.N; rw [N_0]; omega⟩, rfl⟩
  obtain ⟨-, -, -, -, -, -, e6, e7⟩ := index_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 64 ≤ (i 1).val ∧ (i 1).val < win0_3.index t (1 : Fin 2) * 64 + 64
    omega

end

end Region0

section
variable (V : (c : Dev nD) → (b : Ref sig .tc) → Buf (Elt Ideal) ((c : Thread nD τ).loc b))

/-- After all 50 grid points the output array holds, at row `p` and column `q`, row `p` of the first array times column
    `q` of the weights, summed over the 64 inner positions, times row `p`'s scale. -/
theorem final0 (c : Dev nD) (p : Fin 100000) (q : Fin 64) :
    (dat0 V c).arrAt 3 cfg0.N (ix2 p q)
      = HMul.hMul (α := EReal) (β := EReal) (γ := EReal)
          (∑ k : Fin 64, HMul.hMul (α := EReal) (β := EReal) (γ := EReal) (V c main_arg0 (ix2 p k)) (V c main_arg2 (ix2 k q)))
          (V c main_v15 (ix2 p 0)) :=
  congrFun ((dat0 V c).arrAt_eq_of_cover 3 (Region0.whole (V c main_arg0) (V c main_arg2) (V c main_v15))
    (fun t _ => Region0.flushed_eq V c t) Region0.cover) (ix2 p q)

end

end Cert.KernelIdeal.Blocks

end
-- ==== Proof.Region1.lean ====
/-
  The second launch's output array, element by element.

  The launch walks 50 grid points; point `t` stages rows `2000 t … 2000 t + 1999` of a `[100000, 64]` array and of a
  `[100000, 1]` column of row scales, together with a `[64]` bias and a `[64, 32]` weight matrix that stay in place, and
  writes back the block whose entry `(r, q)` is `(∑ k, max (x (r, k) · s (r, 0) + b k) 0 · w (k, q)) · s (r, 0)`. The 50
  blocks tile the output, so after the last point the output array holds that expression of the four arrays at every
  `(p, q)` — whatever the four arrays held when the launch began.
-/
import proofs.«181443_j16054587753020_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import proofs.«181443_j16054587753020_2_alg».proof.Proof.LibDense

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

namespace Region1

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `r`, column `q` of a block: each entry of row `r` is scaled by the row's scale, shifted
    by its column's bias and clamped below at zero; the clamped row times column `q` of the weights is summed over the
    64 inner positions, and the sum is scaled by the row's scale again. -/
theorem payload_apply (x0 : Vec Ideal S2000x64 .f32) (x1 : Vec Ideal S2000x1 .f32) (x2 : Vec Ideal S64 .f32)
    (x3 : Vec Ideal S64x32 .f32) (x4 : Vec Ideal S2000x1 .f32) (r : Fin 2000) (q : Fin 32) :
    k1_pay1 x0 x1 x2 x3 x4 (ix2 r q)
      = (∑ k : Fin 64, max (x0 (ix2 r k) * x1 (ix2 r 0) + x2 (ix1 k)) 0 * x3 (ix2 k q)) * x4 (ix2 r 0) := by
  unfold k1_pay1
  simp only [shapeCast_self]
  rw [truncf_apply, mulf_apply, broadcastTo_a1_ab_apply]
  refine congrArg (· * x4 (ix2 r 0)) ?_
  refine (matmul_zero_plain_apply dot_S2000x64_S64x32_S2000x32_1_0_0_1_n_n none rfl rfl (fun _ _ => rfl) (fun _ _ => rfl)
    (fun _ _ => rfl) (fun _ _ => rfl) _ _ r q).trans ?_
  refine Finset.sum_congr rfl fun k _ => ?_
  rw [truncf_apply, truncf_apply, maximumf_apply, addf_apply, mulf_apply, broadcast_apply, broadcastTo_a1_ab_apply,
    broadcastTo_1b_ab_apply, shapeCast_a_1a_apply]
  show max _ (Ideal.ofBits .f32 0x00000000#32) * _ = _
  rw [Ideal.ofBits_zero_f32]

/-- The whole output array as one function of the four arrays the launch reads: entry `(p, q)` is
    `(∑ k, max (a0 (p, k) * a1 (p, 0) + a2 k) 0 * a3 (k, q)) * a1 (p, 0)`. -/
abbrev whole (a0 : S100000x64.Idx → EReal) (a1 : S100000x1.Idx → EReal) (a2 : S64.Idx → EReal) (a3 : S64x32.Idx → EReal) :
    S100000x32.Idx → EReal :=
  fun i => (∑ k : Fin 64, max (a0 (ix2 (⟨(i 0).val, idx2_lt0 i⟩ : Fin 100000) k)
        * a1 (ix2 (⟨(i 0).val, idx2_lt0 i⟩ : Fin 100000) (0 : Fin 1)) + a2 (ix1 k)) 0
      * a3 (ix2 k (⟨(i 1).val, idx2_lt1 i⟩ : Fin 32)))
    * a1 (ix2 (⟨(i 0).val, idx2_lt0 i⟩ : Fin 100000) (0 : Fin 1))

/-- One element: if the four blocks hold, at the places the body reads for block index `j`, what the four arrays hold at
    the places `whole` reads for array index `i`, the body's result at `j` is `whole` at `i` (the body reads the scale block
    twice). -/
theorem point_eq (x0 : Vec Ideal S2000x64 .f32) (x1 : Vec Ideal S2000x1 .f32) (x2 : Vec Ideal S64 .f32) (x3 : Vec Ideal S64x32 .f32)
    (a0 : S100000x64.Idx → EReal) (a1 : S100000x1.Idx → EReal) (a2 : S64.Idx → EReal) (a3 : S64x32.Idx → EReal)
    (j : S2000x32.Idx) (i : S100000x32.Idx)
    (h0 : ∀ k : Fin 64, x0 (ix2 (⟨(j 0).val, idx2_lt0 j⟩ : Fin 2000) k) = a0 (ix2 (⟨(i 0).val, idx2_lt0 i⟩ : Fin 100000) k))
    (h1 : x1 (ix2 (⟨(j 0).val, idx2_lt0 j⟩ : Fin 2000) (0 : Fin 1)) = a1 (ix2 (⟨(i 0).val, idx2_lt0 i⟩ : Fin 100000) (0 : Fin 1)))
    (h2 : ∀ k : Fin 64, x2 (ix1 k) = a2 (ix1 k))
    (h3 : ∀ k : Fin 64, x3 (ix2 k (⟨(j 1).val, idx2_lt1 j⟩ : Fin 32)) = a3 (ix2 k (⟨(i 1).val, idx2_lt1 i⟩ : Fin 32))) :
    k1_pay1 x0 x1 x2 x3 x1 j = whole a0 a1 a2 a3 i := by
  obtain ⟨r, q, rfl⟩ : ∃ (r : Fin 2000) (q : Fin 32), j = ix2 r q := ⟨j 0, j 1, eq_ix2 j⟩
  rw [payload_apply]
  exact congrArg₂ (· * ·) (Finset.sum_congr rfl fun k _ => congrArg₂ (· * ·)
    (congrArg (fun z => max z 0) (congrArg₂ (· + ·) (congrArg₂ (· * ·) (h0 k) h1) (h2 k))) (h3 k)) h1

theorem zero2 : (![0, 0] : Fin 2 → Nat) = fun _ => 0 := funext fun a => by fin_cases a <;> rfl
theorem zero1 : (![0] : Fin 1 → Nat) = fun _ => 0 := funext fun a => by fin_cases a <;> rfl

/-- The index maps over the 50 grid points: the left and scale windows move with the output window along the rows, the
    bias and weight windows stay, and the output's block index is the point's number on the rows and zero on the columns. -/
theorem index_facts : ∀ t : Fin cfg1.N,
    win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- What grid point `t` writes back is block `t` of `whole` of the arrays as the launch finds them. -/
theorem flushed_eq (c : Dev nD) (t : Fin cfg1.N) :
    (dat1 V c).flushed 4 t
      = ((cfg1.win 4).blk t).view.read (Elt Ideal) (whole (V c main_v27) (V c main_v15) (V c main_arg3) (V c main_arg4)) := by
  show (cfg1.win 4).cut (grid1.coords t) ((dat1 V c).after 4 t) = _
  rw [after1_4]
  unfold out1_4
  rw [View.canon_unit_zero zero2]
  simp only [View.ld_unit_zero (S := S2000x64) zero2, View.ld_unit_zero (S := S2000x1) zero2,
    View.ld_unit_zero (S := S64) zero1, View.ld_unit_zero (S := S64x32) zero2]
  obtain ⟨e0, e1, e2, e3, e4, e5, e6, e7, e8⟩ := index_facts t
  refine funext fun j => ?_
  show k1_pay1 (iblk1 V c 0 t) (iblk1 V c 1 t) (iblk1 V c 2 t) (iblk1 V c 3 t) (iblk1 V c 1 t)
        ((cfg1.win 4).xinj (grid1.coords t) j)
      = whole (V c main_v27) (V c main_v15) (V c main_arg3) (V c main_arg4) (((cfg1.win 4).blk t).view.emb j)
  refine point_eq _ _ _ _ _ _ _ _ _ _ (fun k => ?_) ?_ (fun k => ?_) (fun k => ?_)
  · show V c main_v27 (((cfg1.win 0).blk t).view.emb (ix2 (⟨(j 0).val, _⟩ : Fin 2000) k))
        = V c main_v27 (ix2 (⟨((((cfg1.win 4).blk t).view.emb j) 0).val, _⟩ : Fin 100000) k)
    refine congrArg _ (funext fun a => Fin.ext ?_)
    match a with
    | ⟨0, _⟩ =>
      show win1_0.index t (0 : Fin 2) * 2000 + 1 * (j 0).val = win1_4.index t (0 : Fin 2) * 2000 + 1 * (j 0).val
      omega
    | ⟨1, _⟩ =>
      show win1_0.index t (1 : Fin 2) * 64 + 1 * k.val = k.val
      omega
  · show V c main_v15 (((cfg1.win 1).blk t).view.emb (ix2 (⟨(j 0).val, _⟩ : Fin 2000) (0 : Fin 1)))
        = V c main_v15 (ix2 (⟨((((cfg1.win 4).blk t).view.emb j) 0).val, _⟩ : Fin 100000) (0 : Fin 1))
    refine congrArg _ (funext fun a => Fin.ext ?_)
    match a with
    | ⟨0, _⟩ =>
      show win1_1.index t (0 : Fin 2) * 2000 + 1 * (j 0).val = win1_4.index t (0 : Fin 2) * 2000 + 1 * (j 0).val
      omega
    | ⟨1, _⟩ =>
      show win1_1.index t (1 : Fin 2) * 1 + 1 * 0 = 0
      omega
  · show V c main_arg3 (((cfg1.win 2).blk t).view.emb (ix1 k)) = V c main_arg3 (ix1 k)
    refine congrArg _ (funext fun a => Fin.ext ?_)
    match a with
    | ⟨0, _⟩ =>
      show win1_2.index t (0 : Fin 1) * 64 + 1 * k.val = k.val
      omega
  · show V c main_arg4 (((cfg1.win 3).blk t).view.emb (ix2 k (⟨(j 1).val, _⟩ : Fin 32)))
        = V c main_arg4 (ix2 k (⟨((((cfg1.win 4).blk t).view.emb j) 1).val, _⟩ : Fin 32))
    refine congrArg _ (funext fun a => Fin.ext ?_)
    match a with
    | ⟨0, _⟩ =>
      show win1_3.index t (0 : Fin 2) * 64 + 1 * k.val = k.val
      omega
    | ⟨1, _⟩ =>
      show win1_3.index t (1 : Fin 2) * 32 + 1 * (j 1).val = win1_4.index t (1 : Fin 2) * 32 + 1 * (j 1).val
      omega

/-- An index of the array is in point `t`'s block iff each coordinate is in the block's range on its axis. -/
theorem mem_blk (t : Fin cfg1.N) (i : S100000x32.Idx) :
    i ∈ ((cfg1.win 4).blk t).view.set ↔ ∀ a : Fin 2, win1_4.index t a * S2000x32.size a ≤ (i a).val
      ∧ (i a).val < win1_4.index t a * S2000x32.size a + S2000x32.size a := by
  show i ∈ ((View.whole main_v28).slice (win1_4.rect t)).set ↔ _
  rw [View.set_slice_whole, Rect.mem_set_unit]
  exact Iff.rfl

/-- Every index of the array is in the block of the point numbered by its row divided by 2000. -/
theorem cover (i : S100000x32.Idx) :
    ∃ t : Fin cfg1.N, (cfg1.win 4).flush t = true ∧ i ∈ ((cfg1.win 4).blk t).view.set := by
  have hi0 : (i 0).val < 100000 := idx2_lt0 i
  have hi1 : (i 1).val < 32 := idx2_lt1 i
  obtain ⟨t, ht⟩ : ∃ t : Fin cfg1.N, t.val = (i 0).val / 2000 :=
    ⟨⟨(i 0).val / 2000, by show (i 0).val / 2000 < grid1.N; rw [N_1]; omega⟩, rfl⟩
  obtain ⟨-, -, -, -, -, -, -, e7, e8⟩ := index_facts t
  refine ⟨t, flush1_4 t, ?_⟩
  rw [mem_blk]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 32 ≤ (i 1).val ∧ (i 1).val < win1_4.index t (1 : Fin 2) * 32 + 32
    omega

end

end Region1

section
variable (V : (c : Dev nD) → (b : Ref sig .tc) → Buf (Elt Ideal) ((c : Thread nD τ).loc b))

/-- After all 50 grid points the output array holds, at row `p` and column `q`: row `p` of the first array, each entry
    scaled by row `p`'s scale, shifted by its column's bias and clamped below at zero, times column `q` of the weights,
    summed over the 64 inner positions, and scaled by row `p`'s scale again. -/
theorem final1 (c : Dev nD) (p : Fin 100000) (q : Fin 32) :
    (dat1 V c).arrAt 4 cfg1.N (ix2 p q)
      = HMul.hMul (α := EReal) (β := EReal) (γ := EReal)
          (∑ k : Fin 64, HMul.hMul (α := EReal) (β := EReal) (γ := EReal)
            (max (HAdd.hAdd (α := EReal) (β := EReal) (γ := EReal)
              (HMul.hMul (α := EReal) (β := EReal) (γ := EReal) (V c main_v27 (ix2 p k)) (V c main_v15 (ix2 p 0)))
              (V c main_arg3 (ix1 k))) 0)
            (V c main_arg4 (ix2 k q)))
          (V c main_v15 (ix2 p 0)) :=
  congrFun ((dat1 V c).arrAt_eq_of_cover 4 (Region1.whole (V c main_v27) (V c main_v15) (V c main_arg3) (V c main_arg4))
    (fun t _ => Region1.flushed_eq V c t) Region1.cover) (ix2 p q)

end

end Cert.KernelIdeal.Blocks

end
-- ==== Proof.Region2.lean ====
/-
  The third launch's output array, element by element.

  The launch walks 50 grid points; point `t` stages rows `2000 t … 2000 t + 1999` of a `[100000, 32]` array and of a
  `[100000, 1]` column of row scales, together with a `[32]` bias that stays in place, and writes back the block whose
  entry `(r, q)` is `x (r, q) · s (r, 0) + b q`. The 50 blocks tile the output, so after the last point the output
  array holds, at `(p, q)`, the entry `(p, q)` of the first array times row `p`'s scale plus `b q` — whatever the
  three arrays held when the launch began.
-/
import proofs.«181443_j16054587753020_2_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

namespace Region2

/-- A column `[a, 1]` broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's arithmetic at row `r`, column `q` of a block: the entry times the row's scale plus the column's bias. -/
theorem payload_apply (x0 : Vec Ideal S2000x32 .f32) (x1 : Vec Ideal S2000x1 .f32) (x2 : Vec Ideal S32 .f32)
    (r : Fin 2000) (q : Fin 32) :
    k2_pay1 x0 x1 x2 (ix2 r q) = x0 (ix2 r q) * x1 (ix2 r 0) + x2 (ix1 q) := by
  unfold k2_pay1
  rw [addf_apply, mulf_apply, shapeCast_self, shapeCast_self, broadcastTo_a1_ab_apply, broadcastTo_1b_ab_apply,
    shapeCast_a_1a_apply]

/-- The whole output array as one function of the three arrays the launch reads: entry `(p, q)` is
    `a0 (p, q) * a1 (p, 0) + a2 q`. -/
abbrev whole (a0 : S100000x32.Idx → EReal) (a1 : S100000x1.Idx → EReal) (a2 : S32.Idx → EReal) : S100000x32.Idx → EReal :=
  fun i => a0 i * a1 (ix2 (⟨(i 0).val, idx2_lt0 i⟩ : Fin 100000) (0 : Fin 1)) + a2 (ix1 (⟨(i 1).val, idx2_lt1 i⟩ : Fin 32))

/-- One element: if the three blocks hold, at the places the body reads for block index `j`, what the three arrays hold at
    the places `whole` reads for array index `i`, the body's result at `j` is `whole` at `i`. -/
theorem point_eq (x0 : Vec Ideal S2000x32 .f32) (x1 : Vec Ideal S2000x1 .f32) (x2 : Vec Ideal S32 .f32)
    (a0 : S100000x32.Idx → EReal) (a1 : S100000x1.Idx → EReal) (a2 : S32.Idx → EReal)
    (j : S2000x32.Idx) (i : S100000x32.Idx)
    (h0 : x0 j = a0 i)
    (h1 : x1 (ix2 (⟨(j 0).val, idx2_lt0 j⟩ : Fin 2000) (0 : Fin 1)) = a1 (ix2 (⟨(i 0).val, idx2_lt0 i⟩ : Fin 100000) (0 : Fin 1)))
    (h2 : x2 (ix1 (⟨(j 1).val, idx2_lt1 j⟩ : Fin 32)) = a2 (ix1 (⟨(i 1).val, idx2_lt1 i⟩ : Fin 32))) :
    k2_pay1 x0 x1 x2 j = whole a0 a1 a2 i := by
  obtain ⟨r, q, rfl⟩ : ∃ (r : Fin 2000) (q : Fin 32), j = ix2 r q := ⟨j 0, j 1, eq_ix2 j⟩
  rw [payload_apply]
  exact congrArg₂ (· + ·) (congrArg₂ (· * ·) h0 h1) h2

theorem zero2 : (![0, 0] : Fin 2 → Nat) = fun _ => 0 := funext fun a => by fin_cases a <;> rfl
theorem zero1 : (![0] : Fin 1 → Nat) = fun _ => 0 := funext fun a => by fin_cases a <;> rfl

/-- The index maps over the 50 grid points: the entry and scale windows move with the output window along the rows, the
    bias window stays, and the output's block index is the point's number on the rows and zero on the columns. -/
theorem index_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- What grid point `t` writes back is block `t` of `whole` of the arrays as the launch finds them. -/
theorem flushed_eq (c : Dev nD) (t : Fin cfg2.N) :
    (dat2 V c).flushed 3 t
      = ((cfg2.win 3).blk t).view.read (Elt Ideal) (whole (V c main_v39) (V c main_v15) (V c main_arg5)) := by
  show (cfg2.win 3).cut (grid2.coords t) ((dat2 V c).after 3 t) = _
  rw [after2_3]
  unfold out2_3
  rw [View.canon_unit_zero zero2]
  simp only [View.ld_unit_zero (S := S2000x32) zero2, View.ld_unit_zero (S := S2000x1) zero2,
    View.ld_unit_zero (S := S32) zero1]
  obtain ⟨e0, e1, e2, e3, e4, e5, e6⟩ := index_facts t
  refine funext fun j => ?_
  show k2_pay1 (iblk2 V c 0 t) (iblk2 V c 1 t) (iblk2 V c 2 t) ((cfg2.win 3).xinj (grid2.coords t) j)
      = whole (V c main_v39) (V c main_v15) (V c main_arg5) (((cfg2.win 3).blk t).view.emb j)
  refine point_eq _ _ _ _ _ _ _ _ ?_ ?_ ?_
  · show V c main_v39 (((cfg2.win 0).blk t).view.emb ((cfg2.win 3).xinj (grid2.coords t) j))
        = V c main_v39 (((cfg2.win 3).blk t).view.emb j)
    refine congrArg _ (funext fun a => Fin.ext ?_)
    match a with
    | ⟨0, _⟩ =>
      show win2_0.index t (0 : Fin 2) * 2000 + 1 * (j 0).val = win2_3.index t (0 : Fin 2) * 2000 + 1 * (j 0).val
      omega
    | ⟨1, _⟩ =>
      show win2_0.index t (1 : Fin 2) * 32 + 1 * (j 1).val = win2_3.index t (1 : Fin 2) * 32 + 1 * (j 1).val
      omega
  · show V c main_v15 (((cfg2.win 1).blk t).view.emb (ix2 (⟨(j 0).val, _⟩ : Fin 2000) (0 : Fin 1)))
        = V c main_v15 (ix2 (⟨((((cfg2.win 3).blk t).view.emb j) 0).val, _⟩ : Fin 100000) (0 : Fin 1))
    refine congrArg _ (funext fun a => Fin.ext ?_)
    match a with
    | ⟨0, _⟩ =>
      show win2_1.index t (0 : Fin 2) * 2000 + 1 * (j 0).val = win2_3.index t (0 : Fin 2) * 2000 + 1 * (j 0).val
      omega
    | ⟨1, _⟩ =>
      show win2_1.index t (1 : Fin 2) * 1 + 1 * 0 = 0
      omega
  · show V c main_arg5 (((cfg2.win 2).blk t).view.emb (ix1 (⟨(j 1).val, _⟩ : Fin 32)))
        = V c main_arg5 (ix1 (⟨((((cfg2.win 3).blk t).view.emb j) 1).val, _⟩ : Fin 32))
    refine congrArg _ (funext fun a => Fin.ext ?_)
    match a with
    | ⟨0, _⟩ =>
      show win2_2.index t (0 : Fin 1) * 32 + 1 * (j 1).val = win2_3.index t (1 : Fin 2) * 32 + 1 * (j 1).val
      omega

/-- An index of the array is in point `t`'s block iff each coordinate is in the block's range on its axis. -/
theorem mem_blk (t : Fin cfg2.N) (i : S100000x32.Idx) :
    i ∈ ((cfg2.win 3).blk t).view.set ↔ ∀ a : Fin 2, win2_3.index t a * S2000x32.size a ≤ (i a).val
      ∧ (i a).val < win2_3.index t a * S2000x32.size a + S2000x32.size a := by
  show i ∈ ((View.whole main_v40).slice (win2_3.rect t)).set ↔ _
  rw [View.set_slice_whole, Rect.mem_set_unit]
  exact Iff.rfl

/-- Every index of the array is in the block of the point numbered by its row divided by 2000. -/
theorem cover (i : S100000x32.Idx) :
    ∃ t : Fin cfg2.N, (cfg2.win 3).flush t = true ∧ i ∈ ((cfg2.win 3).blk t).view.set := by
  have hi0 : (i 0).val < 100000 := idx2_lt0 i
  have hi1 : (i 1).val < 32 := idx2_lt1 i
  obtain ⟨t, ht⟩ : ∃ t : Fin cfg2.N, t.val = (i 0).val / 2000 :=
    ⟨⟨(i 0).val / 2000, by show (i 0).val / 2000 < grid2.N; rw [N_2]; omega⟩, rfl⟩
  obtain ⟨-, -, -, -, -, e5, e6⟩ := index_facts t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 32 ≤ (i 1).val ∧ (i 1).val < win2_3.index t (1 : Fin 2) * 32 + 32
    omega

end

end Region2

section
variable (V : (c : Dev nD) → (b : Ref sig .tc) → Buf (Elt Ideal) ((c : Thread nD τ).loc b))

/-- After all 50 grid points the output array holds, at row `p` and column `q`, the entry of the first array there times
    row `p`'s scale plus column `q`'s bias. -/
theorem final2 (c : Dev nD) (p : Fin 100000) (q : Fin 32) :
    (dat2 V c).arrAt 3 cfg2.N (ix2 p q)
      = HAdd.hAdd (α := EReal) (β := EReal) (γ := EReal)
          (HMul.hMul (α := EReal) (β := EReal) (γ := EReal) (V c main_v39 (ix2 p q)) (V c main_v15 (ix2 p 0)))
          (V c main_arg5 (ix1 q)) :=
  congrFun ((dat2 V c).arrAt_eq_of_cover 3 (Region2.whole (V c main_v39) (V c main_v15) (V c main_arg5))
    (fun t _ => Region2.flushed_eq V c t) Region2.cover) (ix2 p q)

end

end Cert.KernelIdeal.Blocks

end
-- ==== Proof.LibScatterSplit.lean ====
/-
  ONE ACCUMULATING SCATTER OF THREE INTERLEAVED ARRAYS IS THREE SCATTERS IN TURN (at the ideal instance).

  An accumulating scatter along rows adds, to element (b, v) of a [B, V] operand, every update element (b, q) of a
  [B, N] update array whose index entry q of an [N, 1] index array, read as a signed integer, is v; an entry outside
  [0, V) lands nowhere. At the ideal instance the elements are extended reals and the result is the operand's element
  plus the sum of the updates landing on it.

  If a long axis of extent 3N interleaves three arrays of extent N (position 3p + k holds entry p of the k-th), the
  sum over the long axis splits, by the bijection (p, k) to 3p + k, into the three sums over p; addition of extended
  reals is commutative and associative, so the one scatter over the long axis equals the three scatters applied one
  after the other, whatever the values and whatever the indices (colliding, negative or out of range included).

  The statements: the coordinate reading of the landing condition (resultIdx?_eq_some_iff for any dimension numbers,
  resultIdx?_rows for a scatter along rows), the scatter read at one element (hostScatterAdd_rows_apply), the
  bijection (interleave3), the split of the row sum (rowSum_interleave3) and the theorem in four forms: general
  extents or the extents 8, 6890, 1048576, 3145728; the three arrays as a family over k or named one by one.
-/
import Idealize.ShloMosaic.Lib.ValueIdx

noncomputable section

open scoped BigOperators

namespace Cert.Lib.ScatterSplit

open Idealize.ShloMosaic Idealize.ShloMosaic.ValueIdx

/-- An update index lands on a result index exactly when, on every operand axis, the result coordinate is the
    start plus the window coordinate. -/
theorem resultIdx?_eq_some_iff {s si u : Shape} (d : ScatterDims s si u) {w : Nat} (j : u.Idx) (idx : IVec si w)
    (i : s.Idx) :
    d.resultIdx? j idx = some i ↔ ∀ a, ((i a).val : Int) = d.start j idx a + d.window j a := by
  unfold ScatterDims.resultIdx?
  split_ifs with h
  · constructor
    · intro heq a
      have := Option.some.inj heq
      subst this
      show ((d.start j idx a + d.window j a).toNat : Int) = _
      exact Int.toNat_of_nonneg (h a).1
    · intro heq
      congr 1
      funext a
      refine Fin.ext ?_
      show (d.start j idx a + d.window j a).toNat = (i a).val
      have := heq a
      omega
  · constructor
    · intro heq
      exact absurd heq (by simp)
    · intro heq
      exfalso
      apply h
      intro a
      have := heq a
      have := (i a).isLt
      omega

/-- A scatter along rows (update window axis 0, inserted operand axis 1, the one start component going to operand
    axis 1, the index vector on axis 1 of an [N, 1] index array): update position (b, q) lands on result element
    (b', v) exactly when b' = b and v is entry q of the index array read as a signed integer. -/
theorem resultIdx?_rows {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (idx : IVec ⟨2, ![N, 1]⟩ w) (j : (⟨2, ![B, N]⟩ : Shape).Idx) (i : (⟨2, ![B, V]⟩ : Shape).Idx) :
    d.resultIdx? j idx = some i ↔
      (i 0).val = (j 0).val ∧ ((i 1).val : Int) = (idx (ix2 (j 1) 0)).toInt := by
  obtain ⟨uw, iw, sd, iv, wf⟩ := d
  simp only at hu hi hs hv
  subst hu hi hs hv
  rw [resultIdx?_eq_some_iff]
  have hs0 : (⟨[0], [1], [1], 1, wf⟩ : ScatterDims ⟨2, ![B, V]⟩ ⟨2, ![N, 1]⟩ ⟨2, ![B, N]⟩).start j idx 0 = 0 := by
    unfold ScatterDims.start
    rw [dif_neg (show (0 : Fin 2) ∉ [1] by decide)]
  have hs1 : (⟨[0], [1], [1], 1, wf⟩ : ScatterDims ⟨2, ![B, V]⟩ ⟨2, ![N, 1]⟩ ⟨2, ![B, N]⟩).start j idx 1
      = (idx (ix2 (j 1) 0)).toInt := by
    unfold ScatterDims.start
    rw [dif_pos (show (1 : Fin 2) ∈ [1] from List.mem_singleton.mpr rfl)]
    congr 2
    funext b; refine Fin.ext ?_
    match b with
    | ⟨0, _⟩ => rfl
    | ⟨1, _⟩ => rfl
  have hw0 : (⟨[0], [1], [1], 1, wf⟩ : ScatterDims ⟨2, ![B, V]⟩ ⟨2, ![N, 1]⟩ ⟨2, ![B, N]⟩).window j 0 = (j 0).val := by
    have hp : (0 : Fin 2) ∈ (⟨[0], [1], [1], 1, wf⟩ : ScatterDims ⟨2, ![B, V]⟩ ⟨2, ![N, 1]⟩ ⟨2, ![B, N]⟩).sKept := by
      show (0 : Fin 2) ∈ (List.finRange 2).filter (· ∉ [(1 : Fin 2)])
      decide
    unfold ScatterDims.window
    rw [dif_pos hp]
    rfl
  have hw1 : (⟨[0], [1], [1], 1, wf⟩ : ScatterDims ⟨2, ![B, V]⟩ ⟨2, ![N, 1]⟩ ⟨2, ![B, N]⟩).window j 1 = 0 := by
    have hn : (1 : Fin 2) ∉ (⟨[0], [1], [1], 1, wf⟩ : ScatterDims ⟨2, ![B, V]⟩ ⟨2, ![N, 1]⟩ ⟨2, ![B, N]⟩).sKept := by
      show (1 : Fin 2) ∉ (List.finRange 2).filter (· ∉ [(1 : Fin 2)])
      decide
    unfold ScatterDims.window
    rw [dif_neg hn]
  constructor
  · intro h
    have h0 := h 0
    have h1 := h 1
    rw [hs0, hw0] at h0
    rw [hs1, hw1] at h1
    refine ⟨by omega, by omega⟩
  · rintro ⟨h0, h1⟩
    have k0 : ((i 0).val : Int) = (⟨[0], [1], [1], 1, wf⟩ : ScatterDims ⟨2, ![B, V]⟩ ⟨2, ![N, 1]⟩ ⟨2, ![B, N]⟩).start j idx 0
        + (⟨[0], [1], [1], 1, wf⟩ : ScatterDims ⟨2, ![B, V]⟩ ⟨2, ![N, 1]⟩ ⟨2, ![B, N]⟩).window j 0 := by
      rw [hs0, hw0]; omega
    have k1 : ((i 1).val : Int) = (⟨[0], [1], [1], 1, wf⟩ : ScatterDims ⟨2, ![B, V]⟩ ⟨2, ![N, 1]⟩ ⟨2, ![B, N]⟩).start j idx 1
        + (⟨[0], [1], [1], 1, wf⟩ : ScatterDims ⟨2, ![B, V]⟩ ⟨2, ![N, 1]⟩ ⟨2, ![B, N]⟩).window j 1 := by
      rw [hs1, hw1]; omega
    intro a
    match a with
    | ⟨0, _⟩ => exact k0
    | ⟨1, _⟩ => exact k1

/-- The amount a scatter along rows adds to result element i: the sum, over the update positions (b, q), of the
    updates whose row b is i's row and whose index entry q, read as a signed integer, is i's column. -/
def rowSum {B V N w : Nat} (idx : IVec ⟨2, ![N, 1]⟩ w) (upd : (⟨2, ![B, N]⟩ : Shape).Idx → EReal)
    (i : (⟨2, ![B, V]⟩ : Shape).Idx) : EReal :=
  ∑ b : Fin B, ∑ q : Fin N,
    if (i 0).val = b.val ∧ ((i 1).val : Int) = (idx (ix2 q 0)).toInt then upd (ix2 b q) else 0

/-- An accumulating scatter along rows, read at one result element: the operand's element plus rowSum. -/
theorem hostScatterAdd_rows_apply {B V N w : Nat}
    (d : ScatterDims ⟨2, ![B, V]⟩ ⟨2, ![N, 1]⟩ ⟨2, ![B, N]⟩)
    (hu : d.updateWindowDims = [0]) (hi : d.insertedWindowDims = [1])
    (hs : d.scatterDimsToOperandDims = [1]) (hv : d.indexVectorDim = 1)
    (x : (⟨2, ![B, V]⟩ : Shape).Idx → EReal) (idx : IVec ⟨2, ![N, 1]⟩ w)
    (upd : (⟨2, ![B, N]⟩ : Shape).Idx → EReal) (i : (⟨2, ![B, V]⟩ : Shape).Idx) :
    Ideal.hostScatterAdd d x idx upd i = x i + rowSum idx upd i := by
  show x i + _ = x i + _
  congr 1
  unfold rowSum
  rw [Finset.sum_filter, sum_idx2]
  refine Finset.sum_congr rfl fun b _ => Finset.sum_congr rfl fun q _ => ?_
  exact if_congr (resultIdx?_rows d hu hi hs hv idx (ix2 b q) i) rfl rfl

/-- The long axis of extent 3N as N groups of three: (p, k) goes to 3p + k. -/
def interleave3 {N N3 : Nat} (h3 : N3 = 3 * N) : Fin N × Fin 3 ≃ Fin N3 where
  toFun x := ⟨3 * x.1.val + x.2.val, by omega⟩
  invFun q := (⟨q.val / 3, by omega⟩, ⟨q.val % 3, by omega⟩)
  left_inv x := by
    obtain ⟨p, k⟩ := x
    refine Prod.ext (Fin.ext ?_) (Fin.ext ?_)
    · show (3 * p.val + k.val) / 3 = p.val
      omega
    · show (3 * p.val + k.val) % 3 = k.val
      omega
  right_inv q := by
    refine Fin.ext ?_
    show 3 * (q.val / 3) + q.val % 3 = q.val
    omega

/-- The row sum of three interleaved index and update arrays is the sum of the three row sums. -/
theorem rowSum_interleave3 {B V N N3 w : Nat} (h3 : N3 = 3 * N)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (i : (⟨2, ![B, V]⟩ : Shape).Idx) :
    rowSum I U i = rowSum (Ik 0) (Uk 0) i + rowSum (Ik 1) (Uk 1) i + rowSum (Ik 2) (Uk 2) i := by
  unfold rowSum
  simp only [← Finset.sum_add_distrib]
  refine Finset.sum_congr rfl fun b _ => ?_
  rw [← Equiv.sum_comp (interleave3 h3), Fintype.sum_prod_type]
  refine Finset.sum_congr rfl fun p _ => ?_
  rw [Fin.sum_univ_three]
  have hI' : ∀ k : Fin 3, I (ix2 (interleave3 h3 (p, k)) 0) = Ik k (ix2 p 0) := fun k => hI p k
  have hU' : ∀ k : Fin 3, U (ix2 b (interleave3 h3 (p, k))) = Uk k (ix2 b p) := fun k => hU b p k
  rw [hI' 0, hI' 1, hI' 2, hU' 0, hU' 1, hU' 2]

/-- ONE accumulating scatter along rows of three interleaved index and update arrays is the three scatters one after
    the other: position 3p + k of the long axis holds entry p of the k-th index array and column p of the k-th update
    array. Extended-real addition is commutative and associative, so nothing is asked of the values. -/
theorem hostScatterAdd_interleave3 {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (Ik : Fin 3 → IVec ⟨2, ![N, 1]⟩ w) (Uk : Fin 3 → (⟨2, ![B, N]⟩ : Shape).Idx → EReal)
    (hI : ∀ (p : Fin N) (k : Fin 3), I (ix2 (⟨3 * p.val + k.val, by omega⟩ : Fin N3) 0) = Ik k (ix2 p 0))
    (hU : ∀ (b : Fin B) (p : Fin N) (k : Fin 3),
      U (ix2 b (⟨3 * p.val + k.val, by omega⟩ : Fin N3)) = Uk k (ix2 b p))
    (z : (⟨2, ![B, V]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) := by
  funext i
  rw [hostScatterAdd_rows_apply d3 hd3u hd3i hd3s hd3v, hostScatterAdd_rows_apply d1 hd1u hd1i hd1s hd1v,
    hostScatterAdd_rows_apply d1 hd1u hd1i hd1s hd1v, hostScatterAdd_rows_apply d1 hd1u hd1i hd1s hd1v,
    rowSum_interleave3 h3 I U Ik Uk hI hU i]
  simp only [add_assoc]

/-- The same with the three index arrays and the three update arrays named one by one: positions 3p, 3p + 1 and
    3p + 2 of the long axis hold entry p (column p) of the first, the second and the third. -/
theorem hostScatterAdd_interleave3_each {B V N N3 w : Nat} (h3 : N3 = 3 * N)
    (d1 : ScatterDims ⟨2, ![B, V]⟩ ⟨2, ![N, 1]⟩ ⟨2, ![B, N]⟩)
    (d3 : ScatterDims ⟨2, ![B, V]⟩ ⟨2, ![N3, 1]⟩ ⟨2, ![B, N3]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![N3, 1]⟩ w) (U : (⟨2, ![B, N3]⟩ : Shape).Idx → EReal)
    (I0 I1 I2 : IVec ⟨2, ![N, 1]⟩ w) (U0 U1 U2 : (⟨2, ![B, N]⟩ : Shape).Idx → EReal)
    (hI0 : ∀ p : Fin N, I (ix2 (⟨3 * p.val, by omega⟩ : Fin N3) 0) = I0 (ix2 p 0))
    (hI1 : ∀ p : Fin N, I (ix2 (⟨3 * p.val + 1, by omega⟩ : Fin N3) 0) = I1 (ix2 p 0))
    (hI2 : ∀ p : Fin N, I (ix2 (⟨3 * p.val + 2, by omega⟩ : Fin N3) 0) = I2 (ix2 p 0))
    (hU0 : ∀ (b : Fin B) (p : Fin N), U (ix2 b (⟨3 * p.val, by omega⟩ : Fin N3)) = U0 (ix2 b p))
    (hU1 : ∀ (b : Fin B) (p : Fin N), U (ix2 b (⟨3 * p.val + 1, by omega⟩ : Fin N3)) = U1 (ix2 b p))
    (hU2 : ∀ (b : Fin B) (p : Fin N), U (ix2 b (⟨3 * p.val + 2, by omega⟩ : Fin N3)) = U2 (ix2 b p))
    (z : (⟨2, ![B, V]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3 h3 d1 d3 hd1u hd1i hd1s hd1v hd3u hd3i hd3s hd3v I U ![I0, I1, I2] ![U0, U1, U2]
    (fun p k => match k with
      | ⟨0, _⟩ => hI0 p
      | ⟨1, _⟩ => hI1 p
      | ⟨2, _⟩ => hI2 p)
    (fun b p k => match k with
      | ⟨0, _⟩ => hU0 b p
      | ⟨1, _⟩ => hU1 b p
      | ⟨2, _⟩ => hU2 b p) z

/-- The interleaving theorem at the extents 8, 6890, 1048576 and 3145728 = 3 · 1048576, the three index arrays and
    the three update arrays given as families over k. -/
theorem hostScatterAdd_interleave3_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (Ik : Fin 3 → IVec ⟨2, ![1048576, 1]⟩ w) (Uk : Fin 3 → (⟨2, ![8, 1048576]⟩ : Shape).Idx → EReal)
    (hI : ∀ (p : Fin 1048576) (k : Fin 3),
      I (ix2 (⟨3 * p.val + k.val, by omega⟩ : Fin 3145728) 0) = Ik k (ix2 p 0))
    (hU : ∀ (b : Fin 8) (p : Fin 1048576) (k : Fin 3),
      U (ix2 b (⟨3 * p.val + k.val, by omega⟩ : Fin 3145728)) = Uk k (ix2 b p))
    (z : (⟨2, ![8, 6890]⟩ : Shape).Idx → EReal) :
    Ideal.hostScatterAdd d3 z I U =
      Ideal.hostScatterAdd d1 (Ideal.hostScatterAdd d1 (Ideal.hostScatterAdd d1 z (Ik 0) (Uk 0)) (Ik 1) (Uk 1))
        (Ik 2) (Uk 2) :=
  hostScatterAdd_interleave3 (by norm_num) d1 d3 hd1u hd1i hd1s hd1v hd3u hd3i hd3s hd3v I U Ik Uk hI hU z

/-- The interleaving theorem at the extents 8, 6890, 1048576 and 3145728 = 3 · 1048576, the three index arrays and
    the three update arrays named one by one. -/
theorem hostScatterAdd_interleave3_each_lit {w : Nat}
    (d1 : ScatterDims ⟨2, ![8, 6890]⟩ ⟨2, ![1048576, 1]⟩ ⟨2, ![8, 1048576]⟩)
    (d3 : ScatterDims ⟨2, ![8, 6890]⟩ ⟨2, ![3145728, 1]⟩ ⟨2, ![8, 3145728]⟩)
    (hd1u : d1.updateWindowDims = [0]) (hd1i : d1.insertedWindowDims = [1])
    (hd1s : d1.scatterDimsToOperandDims = [1]) (hd1v : d1.indexVectorDim = 1)
    (hd3u : d3.updateWindowDims = [0]) (hd3i : d3.insertedWindowDims = [1])
    (hd3s : d3.scatterDimsToOperandDims = [1]) (hd3v : d3.indexVectorDim = 1)
    (I : IVec ⟨2, ![3145728, 1]⟩ w) (U : (⟨2, ![8, 3145728]⟩ : Shape).Idx → EReal)
    (I0 I1 I2 : IVec ⟨2, ![1048576, 1]⟩ w) (U0 U1 U2 : (⟨2, ![8, 1048576]⟩ : Shape).Idx → EReal)
    (hI0 : ∀ p : Fin 1048576, I (ix2 (⟨3 * p.val, by omega⟩ : Fin 3145728) 0) = I0 (ix2 p 0))
    (hI1 : ∀ p : Fin 1048576, I (ix2 (⟨3 * p.val + 1, by omega⟩ : Fin 3145728) 0) = I1 (ix2 p 0))
    (hI2 : ∀ p : Fin 1048576, I (ix2 (⟨3 * p.val + 2, by omega⟩ : Fin 3145728) 0) = I2 (ix2 p 0))
    (hU0 : ∀ (b : Fin 8) (p : Fin 1048576), U (ix2 b (⟨3 * p.val, by omega⟩ : Fin 3145728)) = U0 (ix2 b p))
    (hU1 : ∀ (b : Fin 8) (p : Fin 1048576), U (ix2 b (⟨3 * p.val + 1, by omega⟩ : Fin 3145728)) = U1 (ix2 b p))
    (hU2 : ∀ (b : Fin 8) (p : Fin 1048576), U (ix2 b (⟨3 * p.val + 2, by omega⟩ : Fin 3145728)) = U2 (ix2 b p))
    (z : (⟨2, ![8, 6890]⟩ : Shape).Idx → EReal) :
    Ideal.hostScatterAdd d3 z I U =
      Ideal.hostScatterAdd d1 (Ideal.hostScatterAdd d1 (Ideal.hostScatterAdd d1 z I0 U0) I1 U1) I2 U2 :=
  hostScatterAdd_interleave3_each (by norm_num) d1 d3 hd1u hd1i hd1s hd1v hd3u hd3i hd3s hd3v I U I0 I1 I2 U0 U1 U2
    hI0 hI1 hI2 hU0 hU1 hU2 z

end Cert.Lib.ScatterSplit
-- ==== Proof.LibRowGather.lean ====
/-
  THE ROW GATHER READ AT AN INDEX. What `X[idx]` of a matrix `X : [N, C]` at an integer vector `idx : [E]`
  lowers to is `stablehlo.gather` with offset_dims `[1]`, collapsed_slice_dims `[0]`, start_index_map `[0]`,
  index_vector_dim `1` and slice_sizes `[1, C]` over the indices reshaped to `[E, 1]`: one whole row of the operand per
  start index. This file names those dimension numbers (`rowDims`) and proves the one fact a value proof needs
  (`gather_rows_apply`): result element `(t, q)` is the operand's element in column `q` of the row `idx[t, 0]`, that
  start index read as a signed integer and clamped into `[0, N − 1]`, as StableHLO's gather clamps every start index.
  On the row axis the slice has size 1, the axis is collapsed, and the start index map names it; on the column axis the
  start is 0 and the result's offset coordinate is the column. It follows `gather_take_apply` (the rank-1 operand) step by step.
-/
import Idealize.ShloMosaic.Lib.ValueIdx

noncomputable section

namespace Idealize.ShloMosaic.ValueIdx

open Idealize.ShloMosaic

section Rows
variable {α : Type}

/-- The row gather's dimension numbers for an operand `[N, C]`, start indices `[E, 1]` and result `[E, C]`; their
    conditions `wf` are decided on a program's literal shapes. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(t, q)`: column `q` of the operand's row `idx[t, 0]`, the start index read signed and
    clamped into `[0, N − 1]`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (t : Fin E) (q : Fin C) :
    Host.gather (rowDims N E C wf) x idx (ix2 t q)
      = x (ix2 ⟨min (idx (ix2 t ⟨0, Nat.one_pos⟩)).toInt.toNat (N - 1), by omega⟩ q) := by
  unfold Host.gather
  congr 1
  funext a
  refine Fin.ext ?_
  show (rowDims N E C wf).start (ix2 t q) idx a + (rowDims N E C wf).batchCoord (ix2 t q) a
      + (rowDims N E C wf).offCoord (ix2 t q) a = _
  rw [GatherDims.batchCoord_eq_zero _ _ _ List.not_mem_nil]
  simp only [Nat.add_zero]
  match a with
  | ⟨0, _⟩ =>
    -- the row axis: collapsed, so no offset; named by the start index map, so the clamped start index
    show (rowDims N E C wf).start (ix2 t q) idx (0 : Fin 2) + (rowDims N E C wf).offCoord (ix2 t q) (0 : Fin 2)
      = min (idx (ix2 t ⟨0, Nat.one_pos⟩)).toInt.toNat (N - 1)
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 t q) ⟨List.idxOf (0 : Fin 2) (rowDims N E C wf).startIndexMap,
        List.idxOf_lt_length_iff.2 (List.mem_singleton.mpr rfl)⟩ = ix2 t ⟨0, Nat.one_pos⟩ := by
      funext b; refine Fin.ext ?_
      match b with
      | ⟨0, _⟩ => rfl
      | ⟨1, _⟩ => rfl
    rw [hsi]
    rfl
  | ⟨1, _⟩ =>
    -- the column axis: not in the start index map, so the start is 0; the offset is the result's column
    show (rowDims N E C wf).start (ix2 t q) idx (1 : Fin 2) + (rowDims N E C wf).offCoord (ix2 t q) (1 : Fin 2) = q.val
    unfold GatherDims.start
    rw [dif_neg (show (1 : Fin 2) ∉ (rowDims N E C wf).startIndexMap from
      fun h => absurd (congrArg Fin.val (List.mem_singleton.mp h)) Nat.one_ne_zero)]
    rw [Nat.zero_add]
    rfl

end Rows

end Idealize.ShloMosaic.ValueIdx

end
-- ==== Proof.LibSegmentSum.lean ====
/-
  A SEGMENT SUM READ AT AN INDEX (at the ideal instance).

  What jax.ops.segment_sum(T[row] * wt[:, None], seg, num_segments = V) lowers to is: a row gather of a table
  T : [E, C] at K start indices (one whole row per index, the index read signed and clamped into [0, E − 1]), an
  elementwise product with a [K, C] array that holds weight wt k on all of row k, and an accumulating scatter of the
  K rows into a [V, C] operand along axis 0: row k is added to the operand's row seg k, and dropped when seg k, read
  signed, is outside [0, V). The extended reals' addition is commutative and associative, so the result at (n, c) is
  the operand's element plus the sum, over the k whose segment index is n, of T[clamp (row k), c] · wt k — one column
  c of the table at a time, whatever C is.

  The statements: the landing condition of a scatter along axis 0 in coordinates (resultIdx?_axis0), that scatter read
  at one element (scatterAdd_axis0_apply), the sum named (segAcc) and the composite (segmentSum_apply).
-/
import Idealize.ShloMosaic.Lib.ValueIdx
import proofs.«181443_j16054587753020_2_alg».proof.Proof.LibScatterSplit
import proofs.«181443_j16054587753020_2_alg».proof.Proof.LibRowGather

noncomputable section

open scoped BigOperators

namespace Cert.Lib.SegmentSum

open Idealize.ShloMosaic Idealize.ShloMosaic.ValueIdx Cert.Lib.ScatterSplit

/-- A scatter along axis 0 (update window axis 1, inserted operand axis 0, the one start component going to operand
    axis 0, the index vector on axis 1 of a [K, 1] index array): update position (k, c) lands on result element
    (n, c') exactly when c' = c and n is entry k of the index array read as a signed integer. -/
theorem resultIdx?_axis0 {V K C w : Nat}
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (idx : IVec ⟨2, ![K, 1]⟩ w) (j : (⟨2, ![K, C]⟩ : Shape).Idx) (i : (⟨2, ![V, C]⟩ : Shape).Idx) :
    d.resultIdx? j idx = some i ↔
      ((i 0).val : Int) = (idx (ix2 (j 0) ⟨0, Nat.one_pos⟩)).toInt ∧ (i 1).val = (j 1).val := by
  obtain ⟨uw, iw, sd, iv, wf⟩ := d
  simp only at hu hi hs hv
  subst hu hi hs hv
  rw [resultIdx?_eq_some_iff]
  have hs0 : (⟨[1], [0], [0], 1, wf⟩ : ScatterDims ⟨2, ![V, C]⟩ ⟨2, ![K, 1]⟩ ⟨2, ![K, C]⟩).start j idx 0
      = (idx (ix2 (j 0) ⟨0, Nat.one_pos⟩)).toInt := by
    unfold ScatterDims.start
    rw [dif_pos (show (0 : Fin 2) ∈ [0] from List.mem_singleton.mpr rfl)]
    congr 2
    funext b; refine Fin.ext ?_
    match b with
    | ⟨0, _⟩ => rfl
    | ⟨1, _⟩ => rfl
  have hs1 : (⟨[1], [0], [0], 1, wf⟩ : ScatterDims ⟨2, ![V, C]⟩ ⟨2, ![K, 1]⟩ ⟨2, ![K, C]⟩).start j idx 1 = 0 := by
    unfold ScatterDims.start
    rw [dif_neg (show (1 : Fin 2) ∉ [0] by decide)]
  have hw0 : (⟨[1], [0], [0], 1, wf⟩ : ScatterDims ⟨2, ![V, C]⟩ ⟨2, ![K, 1]⟩ ⟨2, ![K, C]⟩).window j 0 = 0 := by
    have hn : (0 : Fin 2) ∉ (⟨[1], [0], [0], 1, wf⟩ : ScatterDims ⟨2, ![V, C]⟩ ⟨2, ![K, 1]⟩ ⟨2, ![K, C]⟩).sKept := by
      show (0 : Fin 2) ∉ (List.finRange 2).filter (· ∉ [(0 : Fin 2)])
      decide
    unfold ScatterDims.window
    rw [dif_neg hn]
  have hw1 : (⟨[1], [0], [0], 1, wf⟩ : ScatterDims ⟨2, ![V, C]⟩ ⟨2, ![K, 1]⟩ ⟨2, ![K, C]⟩).window j 1 = (j 1).val := by
    have hp : (1 : Fin 2) ∈ (⟨[1], [0], [0], 1, wf⟩ : ScatterDims ⟨2, ![V, C]⟩ ⟨2, ![K, 1]⟩ ⟨2, ![K, C]⟩).sKept := by
      show (1 : Fin 2) ∈ (List.finRange 2).filter (· ∉ [(0 : Fin 2)])
      decide
    unfold ScatterDims.window
    rw [dif_pos hp]
    rfl
  constructor
  · intro h
    have h0 := h 0
    have h1 := h 1
    rw [hs0, hw0] at h0
    rw [hs1, hw1] at h1
    refine ⟨by omega, by omega⟩
  · rintro ⟨h0, h1⟩
    have k0 : ((i 0).val : Int) = (⟨[1], [0], [0], 1, wf⟩ : ScatterDims ⟨2, ![V, C]⟩ ⟨2, ![K, 1]⟩ ⟨2, ![K, C]⟩).start j idx 0
        + (⟨[1], [0], [0], 1, wf⟩ : ScatterDims ⟨2, ![V, C]⟩ ⟨2, ![K, 1]⟩ ⟨2, ![K, C]⟩).window j 0 := by
      rw [hs0, hw0]; omega
    have k1 : ((i 1).val : Int) = (⟨[1], [0], [0], 1, wf⟩ : ScatterDims ⟨2, ![V, C]⟩ ⟨2, ![K, 1]⟩ ⟨2, ![K, C]⟩).start j idx 1
        + (⟨[1], [0], [0], 1, wf⟩ : ScatterDims ⟨2, ![V, C]⟩ ⟨2, ![K, 1]⟩ ⟨2, ![K, C]⟩).window j 1 := by
      rw [hs1, hw1]; omega
    intro a
    match a with
    | ⟨0, _⟩ => exact k0
    | ⟨1, _⟩ => exact k1

/-- An accumulating scatter along axis 0 read at (n, c): the operand's element plus the sum of column c of the update
    rows whose index entry, read as a signed integer, is n. -/
theorem scatterAdd_axis0_apply {V K C w : Nat}
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (x : (⟨2, ![V, C]⟩ : Shape).Idx → EReal) (idx : IVec ⟨2, ![K, 1]⟩ w)
    (upd : (⟨2, ![K, C]⟩ : Shape).Idx → EReal) (n : Fin V) (c : Fin C) :
    Ideal.hostScatterAdd d x idx upd (ix2 n c)
      = x (ix2 n c) + ∑ k : Fin K, if (n.val : Int) = (idx (ix2 k ⟨0, Nat.one_pos⟩)).toInt then upd (ix2 k c) else 0 := by
  show x (ix2 n c) + _ = x (ix2 n c) + _
  congr 1
  rw [Finset.sum_filter, sum_idx2]
  refine Finset.sum_congr rfl fun k _ => ?_
  rw [Finset.sum_eq_single c]
  · exact if_congr ((resultIdx?_axis0 d hu hi hs hv idx (ix2 k c) (ix2 n c)).trans
      ⟨fun h => h.1, fun h => ⟨h, rfl⟩⟩) rfl rfl
  · intro c' _ hne
    rw [if_neg]
    intro h
    exact hne (Fin.ext ((resultIdx?_axis0 d hu hi hs hv idx (ix2 k c') (ix2 n c)).mp h).2.symm)
  · intro h
    exact absurd (Finset.mem_univ c) h

/-- What a segment sum holds at segment n, for one column of the table given as a function col of the row: the start
    value z plus the sum, over the k whose segment entry read signed is n, of col at the row named by k's start index
    (read signed, clamped into [0, E − 1]) times the weight of k. -/
def segAcc {E K V w w' : Nat} (hE : 0 < E) (z : EReal) (s : Fin K → BitVec w) (r : Fin K → BitVec w')
    (wt : Fin K → EReal) (col : Fin E → EReal) (n : Fin V) : EReal :=
  z + ∑ k : Fin K, if (n.val : Int) = (s k).toInt then col ⟨min (r k).toInt.toNat (E - 1), by omega⟩ * wt k else 0

/-- THE SEGMENT SUM READ AT (n, c): the operand's element plus the sum, over the k whose segment entry read signed is
    n, of column c of the table's row (start index of k read signed and clamped into [0, E − 1]) times the weight
    of k. The index arrays are read through their one column (hseg, hrow), the weights through their rows (hW). -/
theorem segmentSum_apply {E K V C w w' : Nat} (hE : 0 < E)
    (d : ScatterDims ⟨2, ![V, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![E, C]⟩ ⟨2, ![K, 1]⟩ ⟨2, ![K, C]⟩ [1] [0] [] [0] [] 1 ![1, C])
    (z : FVec Ideal ⟨2, ![V, C]⟩ .f32) (seg : IVec ⟨2, ![K, 1]⟩ w) (row : IVec ⟨2, ![K, 1]⟩ w')
    (T : FVec Ideal ⟨2, ![E, C]⟩ .f32) (W : FVec Ideal ⟨2, ![K, C]⟩ .f32)
    (s : Fin K → BitVec w) (r : Fin K → BitVec w') (wt : Fin K → EReal)
    (hseg : ∀ k, seg (ix2 k ⟨0, Nat.one_pos⟩) = s k) (hrow : ∀ k, row (ix2 k ⟨0, Nat.one_pos⟩) = r k)
    (hW : ∀ k c, W (ix2 k c) = wt k) (n : Fin V) (c : Fin C) :
    Host.scatterAdd (F := Ideal) d z seg (mulf (Host.gather (rowDims E K C wf) T row) W) (ix2 n c)
      = segAcc hE (z (ix2 n c)) s r wt (fun e => T (ix2 e c)) n := by
  unfold segAcc
  refine (scatterAdd_axis0_apply d hu hi hs hv z seg _ n c).trans ?_
  refine congrArg (z (ix2 n c) + ·) (Finset.sum_congr rfl fun k _ => ?_)
  rw [hseg k, mulf_apply, gather_rows_apply hE wf T row k c, hW k c]
  simp only [hrow k]

end Cert.Lib.SegmentSum

end
-- ==== Proof.LibBroadcastInDim.lean ====
/-
  `broadcast_in_dim` read at an index, for four shapes a host program takes a row statistic or a bias through
  (the library has the fifth, a scalar spread over any shape): a vector written as a column; a column repeated along every column; a vector written
  as a one-row matrix; a one-row matrix repeated down every row. In each the entry of the result at an index is the
  operand's entry at the coordinates the operand has.
-/
import Idealize.ShloMosaic.Lib.Pipeline.Value
import Idealize.ShloMosaic.Lib.ValueIdx

namespace Idealize.ShloMosaic.ValueIdx

variable {α : Type}

/-- An `[a]` vector written as the column `[a, 1]` (its axis sent to axis 0) reads, at `(p, u)`, the vector at `p`. -/
theorem broadcastInDim_a_a1_apply {a : ℕ} (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ (![0] : Fin 1 → Fin 2) h x (ix2 p u) = x (ix1 p) :=
  broadcastInDim_apply _ h x (ix2 p u) (ix1 p) fun ax => by
    match ax with
    | ⟨0, _⟩ =>
      show p.val = if a = 1 then 0 else p.val
      split
      · have := p.isLt; omega
      · rfl

/-- An `[a, 1]` column repeated along the columns of `[a, b]` (axes kept in place) reads, at `(p, c)`, the column at row `p`. -/
theorem broadcastInDim_a1_ab_apply {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (![0, 1] : Fin 2 → Fin 2) h x (ix2 p c) = x (ix2 p (0 : Fin 1)) :=
  broadcastInDim_apply _ h x (ix2 p c) (ix2 p (0 : Fin 1)) fun ax => by
    match ax with
    | ⟨0, _⟩ =>
      show p.val = if a = 1 then 0 else p.val
      split
      · have := p.isLt; omega
      · rfl
    | ⟨1, _⟩ => rfl

/-- A `[b]` vector written as the one-row matrix `[1, b]` (its axis sent to axis 1) reads, at `(u, c)`, the vector at `c`. -/
theorem broadcastInDim_b_1b_apply {b : ℕ} (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ (![1] : Fin 1 → Fin 2) h x (ix2 u c) = x (ix1 c) :=
  broadcastInDim_apply _ h x (ix2 u c) (ix1 c) fun ax => by
    match ax with
    | ⟨0, _⟩ =>
      show c.val = if b = 1 then 0 else c.val
      split
      · have := c.isLt; omega
      · rfl

/-- A `[1, b]` one-row matrix repeated down the rows of `[a, b]` reads, at `(p, c)`, the row at column `c`. -/
theorem broadcastInDim_1b_ab_apply {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (![0, 1] : Fin 2 → Fin 2) h x (ix2 p c) = x (ix2 (0 : Fin 1) c) :=
  broadcastInDim_apply _ h x (ix2 p c) (ix2 (0 : Fin 1) c) fun ax => by
    match ax with
    | ⟨0, _⟩ => rfl
    | ⟨1, _⟩ =>
      show c.val = if b = 1 then 0 else c.val
      split
      · have := c.isLt; omega
      · rfl

end Idealize.ShloMosaic.ValueIdx
-- ==== Proof.LibGraphHostOps.lean ====
/-
  Three facts about the host operations around the aggregation, read one entry at a time.

  A gather of single entries of a vector x : [N] at K start indices given as a [K, 1] array: entry e of the result is
  x at the e-th start index, read as a signed integer and clamped into [0, N − 1].

  The index wrap applied before a gather (a negative index has the extent added): where an index word read as a
  signed integer is a natural number, the wrap leaves it, so an index that names a node is gathered at that node.

  The scale 1 / √deg where deg > 0 and 0 elsewhere: whatever extended real deg is, the scale is nonnegative and is not
  +∞ (a positive real has a positive real root; +∞ goes to 0).
-/
import Idealize.ShloMosaic.Lib.ValueIdx
import Idealize.ShloMosaic.Lib.Pipeline.Value
import Idealize.ShloMosaic.PureOps.Ideal.Laws

noncomputable section

namespace Cert.HostOps

open Idealize.ShloMosaic Idealize.ShloMosaic.ValueIdx

/-- The dimension numbers of a gather of single entries of an [N] vector at [K, 1] start indices. -/
abbrev vecDims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- The vector gather read at e: the operand at the start index of e, read signed and clamped into [0, N − 1]. -/
theorem gather_vec_apply {α : Type} {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (vecDims N K wf) x idx (ix1 e)
      = x (ix1 ⟨min (idx (ix2 e ⟨0, Nat.one_pos⟩)).toInt.toNat (N - 1), by omega⟩) := by
  unfold Host.gather
  congr 1
  funext a
  obtain rfl : a = 0 := Subsingleton.elim _ _
  refine Fin.ext ?_
  show (vecDims N K wf).start (ix1 e) idx 0 + (vecDims N K wf).batchCoord (ix1 e) 0
      + (vecDims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N K wf).startIndexMap from List.mem_singleton.mpr rfl)]
  have hsi : (vecDims N K wf).siIdx (ix1 e) ⟨List.idxOf (0 : Fin 1) (vecDims N K wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

/-- Where an index word, read signed, is a natural number, the negative-index wrap leaves it. -/
theorem wrap_of_nat (w n : BitVec 32) (i : Nat) (h : (i : Int) = w.toInt) :
    Scalar.select (IntOp.cmpi .slt w 0#32) (IntOp.addi w n) w = w := by
  have hs : w.slt 0#32 = false := by
    have h0 : (0#32 : BitVec 32).toInt = 0 := by decide
    simp only [BitVec.slt, h0, decide_eq_false_iff_not, not_lt]
    omega
  unfold Scalar.select IntOp.cmpi
  simp only [hs]
  rfl

/-- The reciprocal root of a positive extended real is nonnegative and not +∞. -/
theorem rsqrt_nonneg_ne_top {x : EReal} (h : 0 < x) : 0 ≤ Ideal.rsqrt x ∧ Ideal.rsqrt x ≠ ⊤ := by
  induction x using EReal.rec with
  | bot => exact absurd h (by simp)
  | top => rw [Ideal.rsqrt_top]; exact ⟨le_refl _, EReal.zero_ne_top⟩
  | coe r =>
    have hr : 0 < r := by exact_mod_cast h
    rw [Ideal.rsqrt_coe, if_neg (not_lt.mpr hr.le), if_neg hr.ne']
    exact ⟨by exact_mod_cast (inv_nonneg.mpr (Real.sqrt_nonneg r)), EReal.coe_ne_top _⟩

/-- The scale "reciprocal root where positive, zero elsewhere" is nonnegative and not +∞ at every extended real. -/
theorem scale_nonneg_ne_top (x : EReal) :
    0 ≤ Scalar.select (Ideal.cmp .ogt x 0) (Ideal.rsqrt x) (0 : EReal)
      ∧ Scalar.select (Ideal.cmp .ogt x 0) (Ideal.rsqrt x) (0 : EReal) ≠ ⊤ := by
  unfold Scalar.select Ideal.cmp
  by_cases h : (0 : EReal) < x
  · have hb : BitVec.ofBool (decide ((0 : EReal) < x)) = 1 := by simp [h]
    rw [if_pos hb]
    exact rsqrt_nonneg_ne_top h
  · have hb : ¬ BitVec.ofBool (decide ((0 : EReal) < x)) = 1 := by simp [h]
    rw [if_neg hb]
    exact ⟨le_refl _, EReal.zero_ne_top⟩

end Cert.HostOps

end
-- ==== Proof.LibAggregationLaw.lean ====
/-
  Two layers of normalized graph aggregation, with the normalization folded into per-node scales.

  A graph on N nodes is given by K directed edges; edge e carries a source node g e, and lands on node i when the
  relation L i e holds (an edge whose destination is not a node lands nowhere). Each node j has a scale d j, a
  nonnegative extended real other than +∞. The reference weighs edge e by d (g e) · d (g' e), where g' e is the
  edge's destination read as a node, so that g' e = i whenever e lands on i, and sums the weighted messages landing on
  each node. The kernel scales every node's features by d once before the edges read them and scales the sum by d i
  once after: for the terms landing on i,

      (Σ_e y (g e) · d (g e)) · d i = Σ_e y (g e) · (d (g e) · d i),

  which on the extended reals asks only that d i be nonnegative and not +∞ (multiplication by such a number
  distributes over every sum, infinite terms included); nothing is asked of y. Two layers, a bias and a
  rectification between them, apply the law twice.
-/
import Mathlib.Data.EReal.Operations
import Idealize.ShloMosaic.PureOps.Ideal

noncomputable section

namespace Cert.Law

/-- Multiplication by a nonnegative extended real other than +∞ distributes over a finite sum. -/
theorem sum_mul_of_nonneg {ι : Type} (s : Finset ι) (f : ι → EReal) {r : EReal} (h0 : 0 ≤ r) (ht : r ≠ ⊤) :
    (∑ e ∈ s, f e) * r = ∑ e ∈ s, f e * r := by
  classical
  induction s using Finset.induction_on with
  | empty => simp
  | insert a s ha ih =>
    rw [Finset.sum_insert ha, Finset.sum_insert ha, EReal.right_distrib_of_nonneg_of_ne_top h0 ht, ih]

section
variable {K N A B C : ℕ}

/-- What lands on node i: zero plus the sum of f over the edges landing on i. -/
def landed (L : Fin N → Fin K → Prop) [∀ i e, Decidable (L i e)] (f : Fin K → EReal) (i : Fin N) : EReal :=
  0 + ∑ e : Fin K, if L i e then f e else 0

/-- The aggregation law: scaling the sources' features by d before the edges read them and the sum by d i after is
    weighing every landing edge by d (source) · d (destination). -/
theorem landed_scale (L : Fin N → Fin K → Prop) [∀ i e, Decidable (L i e)] (g g' : Fin K → Fin N)
    (d : Fin N → EReal) (y : Fin N → EReal) (i : Fin N) (h0 : 0 ≤ d i) (ht : d i ≠ ⊤)
    (hg' : ∀ e, L i e → g' e = i) :
    landed L (fun e => y (g e) * d (g e)) i * d i = landed L (fun e => y (g e) * (d (g e) * d (g' e))) i := by
  unfold landed
  rw [zero_add, zero_add, sum_mul_of_nonneg _ _ h0 ht]
  refine Finset.sum_congr rfl fun e _ => ?_
  by_cases h : L i e
  · rw [if_pos h, if_pos h]
    dsimp only
    rw [hg' e h, mul_assoc]
  · rw [if_neg h, if_neg h, zero_mul]

/-- A dense product: row j of x against column k of W. -/
def dense (x : Fin N → Fin A → EReal) (W : Fin A → Fin B → EReal) (j : Fin N) (k : Fin B) : EReal :=
  ∑ a : Fin A, x j a * W a k

/-- The kernel's first aggregate: the dense product scaled by d at the source, summed over the landing edges. -/
def kAgg1 (L : Fin N → Fin K → Prop) [∀ i e, Decidable (L i e)] (g : Fin K → Fin N) (d : Fin N → EReal)
    (x : Fin N → Fin A → EReal) (W1 : Fin A → Fin B → EReal) (j : Fin N) (k : Fin B) : EReal :=
  landed L (fun e => dense x W1 (g e) k * d (g e)) j

/-- The kernel's second features: the rectified, biased, rescaled first aggregate through the second dense product,
    scaled by d. -/
def kFeat2 (L : Fin N → Fin K → Prop) [∀ i e, Decidable (L i e)] (g : Fin K → Fin N) (d : Fin N → EReal)
    (x : Fin N → Fin A → EReal) (W1 : Fin A → Fin B → EReal) (b1 : Fin B → EReal) (W2 : Fin B → Fin C → EReal)
    (j : Fin N) (c : Fin C) : EReal :=
  (∑ k : Fin B, max (kAgg1 L g d x W1 j k * d j + b1 k) 0 * W2 k c) * d j

/-- The kernel's result at (p, q). -/
def kOut (L : Fin N → Fin K → Prop) [∀ i e, Decidable (L i e)] (g : Fin K → Fin N) (d : Fin N → EReal)
    (x : Fin N → Fin A → EReal) (W1 : Fin A → Fin B → EReal) (b1 : Fin B → EReal) (W2 : Fin B → Fin C → EReal)
    (b2 : Fin C → EReal) (p : Fin N) (q : Fin C) : EReal :=
  landed L (fun e => kFeat2 L g d x W1 b1 W2 (g e) q) p * d p + b2 q

/-- The reference's first layer before rectification. -/
def rLayer1 (L : Fin N → Fin K → Prop) [∀ i e, Decidable (L i e)] (g g' : Fin K → Fin N) (d : Fin N → EReal)
    (x : Fin N → Fin A → EReal) (W1 : Fin A → Fin B → EReal) (b1 : Fin B → EReal) (j : Fin N) (k : Fin B) : EReal :=
  landed L (fun e => dense x W1 (g e) k * (d (g e) * d (g' e))) j + b1 k

/-- The reference's second dense product of the rectified first layer. -/
def rFeat2 (L : Fin N → Fin K → Prop) [∀ i e, Decidable (L i e)] (g g' : Fin K → Fin N) (d : Fin N → EReal)
    (x : Fin N → Fin A → EReal) (W1 : Fin A → Fin B → EReal) (b1 : Fin B → EReal) (W2 : Fin B → Fin C → EReal)
    (j : Fin N) (c : Fin C) : EReal :=
  ∑ k : Fin B, max (rLayer1 L g g' d x W1 b1 j k) 0 * W2 k c

/-- The reference's result at (p, q). -/
def rOut (L : Fin N → Fin K → Prop) [∀ i e, Decidable (L i e)] (g g' : Fin K → Fin N) (d : Fin N → EReal)
    (x : Fin N → Fin A → EReal) (W1 : Fin A → Fin B → EReal) (b1 : Fin B → EReal) (W2 : Fin B → Fin C → EReal)
    (b2 : Fin C → EReal) (p : Fin N) (q : Fin C) : EReal :=
  landed L (fun e => rFeat2 L g g' d x W1 b1 W2 (g e) q * (d (g e) * d (g' e))) p + b2 q

/-- The two programs' results agree, entry by entry: the aggregation law at each layer. -/
theorem kOut_eq_rOut (L : Fin N → Fin K → Prop) [∀ i e, Decidable (L i e)] (g g' : Fin K → Fin N)
    (hg' : ∀ i e, L i e → g' e = i) (d : Fin N → EReal) (hd : ∀ j, 0 ≤ d j ∧ d j ≠ ⊤)
    (x : Fin N → Fin A → EReal) (W1 : Fin A → Fin B → EReal) (b1 : Fin B → EReal) (W2 : Fin B → Fin C → EReal)
    (b2 : Fin C → EReal) (p : Fin N) (q : Fin C) :
    kOut L g d x W1 b1 W2 b2 p q = rOut L g g' d x W1 b1 W2 b2 p q := by
  have h1 : ∀ j k, kAgg1 L g d x W1 j k * d j + b1 k = rLayer1 L g g' d x W1 b1 j k := fun j k => by
    unfold kAgg1 rLayer1
    rw [landed_scale L g g' d (fun n => dense x W1 n k) j (hd j).1 (hd j).2 (hg' j)]
  have h2 : ∀ j c, kFeat2 L g d x W1 b1 W2 j c = rFeat2 L g g' d x W1 b1 W2 j c * d j := fun j c => by
    unfold kFeat2 rFeat2
    simp only [h1]
  unfold kOut rOut
  simp only [h2]
  rw [landed_scale L g g' d (fun n => rFeat2 L g g' d x W1 b1 W2 n q) p (hd p).1 (hd p).2 (hg' p)]

end

end Cert.Law

end
-- ==== Proof.LibGraphStages.lean ====
/-
  The graph's edges read off the index arrays, and one aggregation read at an entry.

  The destinations of the K edges are the one column of a [K, 1] array of 32-bit words. Edge e lands on node i (of N)
  when that word, read as a signed integer, is i: an accumulating scatter adds update row e to operand row i exactly
  then, and drops a row whose word is negative or at least N. The node a gather reads for edge e is the edge's start
  word read as a signed integer and clamped into [0, N − 1].

  With these two readings an accumulating scatter into zeros of gathered rows, read at (n, c), is the sum over the
  edges landing on n of column c of the gathered rows (times the edge's weight, when the rows are weighted first);
  a product of two gathered vectors reads entry by entry; a bias written as a row and repeated down the rows reads its
  entry at the column; and an edge landing on node i has, as its wrapped destination, node i.
-/
import Idealize.ShloMosaic.Lib.ValueIdx
import Idealize.ShloMosaic.Lib.Pipeline.Value
import Idealize.ShloMosaic.Lib.IdealHost
import Idealize.ShloMosaic.PureOps.Ideal.Laws
import proofs.«181443_j16054587753020_2_alg».proof.Proof.LibSegmentSum
import proofs.«181443_j16054587753020_2_alg».proof.Proof.LibBroadcastInDim
import proofs.«181443_j16054587753020_2_alg».proof.Proof.LibGraphHostOps
import proofs.«181443_j16054587753020_2_alg».proof.Proof.LibAggregationLaw

noncomputable section

namespace Cert.Graph

open Idealize.ShloMosaic Idealize.ShloMosaic.ValueIdx Cert.Lib.SegmentSum Cert.HostOps Cert.Law

variable {K N : Nat}

/-- Edge e lands on node i: its destination word, read signed, is i. -/
abbrev lands (tcol : IVec ⟨2, ![K, 1]⟩ 32) (i : Fin N) (e : Fin K) : Prop :=
  (i.val : Int) = (tcol (ix2 e ⟨0, Nat.one_pos⟩)).toInt

/-- The node a gather reads for edge e: its start word read signed, clamped into [0, N − 1]. -/
def node (hN : 0 < N) (col : IVec ⟨2, ![K, 1]⟩ 32) (e : Fin K) : Fin N :=
  ⟨min (col (ix2 e ⟨0, Nat.one_pos⟩)).toInt.toNat (N - 1), by omega⟩

/-- An accumulating scatter along axis 0 into an operand that is 0 at (n, c), read there: what lands on n of
    column c of the updates. -/
theorem scatter_landed {C : Nat} (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (z : (⟨2, ![N, C]⟩ : Shape).Idx → EReal) (tcol : IVec ⟨2, ![K, 1]⟩ 32)
    (upd : (⟨2, ![K, C]⟩ : Shape).Idx → EReal) (n : Fin N) (c : Fin C) (hz : z (ix2 n c) = 0) :
    Ideal.hostScatterAdd d z tcol upd (ix2 n c) = landed (lands tcol) (fun e => upd (ix2 e c)) n := by
  rw [scatterAdd_axis0_apply d hu hi hs hv z tcol upd n c, hz]
  rfl

/-- The zero array a scatter accumulates into reads 0 everywhere. -/
theorem zeros_apply {T : Shape} (hz : (⟨0, ![]⟩ : Shape).BroadcastsInDim T ![]) (j : T.Idx) :
    broadcastInDim T ![] hz (constant (F := Ideal) ⟨0, ![]⟩ .f32 0x00000000#32) j = 0 := by
  rw [broadcastInDim_scalar_apply, constant_apply, Ideal.ofBits_zero_f32]

/-- The reference's aggregation at (n, c): gathered rows, each times its edge's weight (a [K] vector written as a
    column and repeated along the columns), scattered into zeros. -/
theorem weighted_stage {C : Nat} (hN : 0 < N) (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![N, C]⟩ ⟨2, ![K, 1]⟩ ⟨2, ![K, C]⟩ [1] [0] [] [0] [] 1 ![1, C])
    (hz : (⟨0, ![]⟩ : Shape).BroadcastsInDim ⟨2, ![N, C]⟩ ![])
    (h1 : (⟨1, ![K]⟩ : Shape).BroadcastsInDim ⟨2, ![K, 1]⟩ (![0] : Fin 1 → Fin 2))
    (h2 : (⟨2, ![K, 1]⟩ : Shape).BroadcastsInDim ⟨2, ![K, C]⟩ (![0, 1] : Fin 2 → Fin 2))
    (tcol scol : IVec ⟨2, ![K, 1]⟩ 32) (T : FVec Ideal ⟨2, ![N, C]⟩ .f32) (wt : FVec Ideal ⟨1, ![K]⟩ .f32)
    (n : Fin N) (c : Fin C) :
    Host.scatterAdd (F := Ideal) d (broadcastInDim ⟨2, ![N, C]⟩ ![] hz (constant (F := Ideal) ⟨0, ![]⟩ .f32 0x00000000#32)) tcol
        (mulf (Host.gather (rowDims N K C wf) T scol)
          (broadcastInDim ⟨2, ![K, C]⟩ ![0, 1] h2 (broadcastInDim ⟨2, ![K, 1]⟩ ![0] h1 wt))) (ix2 n c)
      = landed (lands tcol) (fun e => T (ix2 (node hN scol e) c) * wt (ix1 e)) n := by
  refine (scatter_landed d hu hi hs hv _ tcol _ n c (zeros_apply hz _)).trans ?_
  unfold landed
  refine congrArg (0 + ·) (Finset.sum_congr rfl fun e _ => ?_)
  dsimp only
  rw [mulf_apply, gather_rows_apply hN wf T scol e c, broadcastInDim_a1_ab_apply, broadcastInDim_a_a1_apply]
  rfl

/-- The kernel's aggregation at (n, c): gathered rows (of an array kept in a narrower float format, widened after
    the gather) scattered into zeros. -/
theorem plain_stage {C : Nat} {φ : FTy} (hN : 0 < N) (d : ScatterDims ⟨2, ![N, C]⟩ ⟨2, ![K, 1]⟩ ⟨2, ![K, C]⟩)
    (hu : d.updateWindowDims = [1]) (hi : d.insertedWindowDims = [0])
    (hs : d.scatterDimsToOperandDims = [0]) (hv : d.indexVectorDim = 1)
    (wf : GatherDims.WF ⟨2, ![N, C]⟩ ⟨2, ![K, 1]⟩ ⟨2, ![K, C]⟩ [1] [0] [] [0] [] 1 ![1, C])
    (hz : (⟨0, ![]⟩ : Shape).BroadcastsInDim ⟨2, ![N, C]⟩ ![])
    (tcol scol : IVec ⟨2, ![K, 1]⟩ 32) (T : FVec Ideal ⟨2, ![N, C]⟩ φ) (hb : φ.bits < FTy.f32.bits)
    (n : Fin N) (c : Fin C) :
    Host.scatterAdd (F := Ideal) d (broadcastInDim ⟨2, ![N, C]⟩ ![] hz (constant (F := Ideal) ⟨0, ![]⟩ .f32 0x00000000#32)) tcol
        (extf .f32 (Host.gather (rowDims N K C wf) T scol) hb) (ix2 n c)
      = landed (lands tcol) (fun e => T (ix2 (node hN scol e) c)) n := by
  refine (scatter_landed d hu hi hs hv _ tcol _ n c (zeros_apply hz _)).trans ?_
  unfold landed
  refine congrArg (0 + ·) (Finset.sum_congr rfl fun e _ => ?_)
  dsimp only
  rw [extf_apply, gather_rows_apply hN wf T scol e c]
  rfl

/-- The edge weights: the product of two gathers of one vector, at edge e. -/
theorem norm_stage (hN : 0 < N) (wf1 : GatherDims.WF ⟨1, ![N]⟩ ⟨2, ![K, 1]⟩ ⟨1, ![K]⟩ [] [0] [] [0] [] 1 ![1])
    (dv : FVec Ideal ⟨1, ![N]⟩ .f32) (scol twcol : IVec ⟨2, ![K, 1]⟩ 32) (e : Fin K) :
    mulf (Host.gather (vecDims N K wf1) dv scol) (Host.gather (vecDims N K wf1) dv twcol) (ix1 e)
      = dv (ix1 (node hN scol e)) * dv (ix1 (node hN twcol e)) := by
  rw [mulf_apply, gather_vec_apply hN wf1 dv scol e, gather_vec_apply hN wf1 dv twcol e]
  rfl

/-- A bias vector written as a one-row matrix and repeated down the rows reads, at (n, c), its entry c. -/
theorem bias_apply {C : Nat} {α : Type}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (n : Fin N) (c : Fin C) :
    broadcastInDim ⟨2, ![N, C]⟩ ![0, 1] h2 (broadcastInDim ⟨2, ![1, C]⟩ ![1] h1 b) (ix2 n c) = b (ix1 c) := by
  rw [broadcastInDim_1b_ab_apply, broadcastInDim_b_1b_apply]

/-- An edge that lands on node i has node i as its wrapped destination: the word is a natural number below N, so the
    negative-index wrap leaves it and the clamp does too. -/
theorem wrapped_dest (hN : 0 < N) (hs : (⟨0, ![]⟩ : Shape).BroadcastsInDim ⟨1, ![K]⟩ ![])
    (h1 : (⟨1, ![K]⟩ : Shape).BroadcastsInDim ⟨2, ![K, 1]⟩ (![0] : Fin 1 → Fin 2))
    (t : IVec ⟨1, ![K]⟩ 32) (nw : BitVec 32) (i : Fin N) (e : Fin K)
    (h : lands (broadcastInDim ⟨2, ![K, 1]⟩ ![0] h1 t) i e) :
    node hN (broadcastInDim ⟨2, ![K, 1]⟩ ![0] h1
      (select (cmpi .slt t (broadcastInDim ⟨1, ![K]⟩ ![] hs (constantI ⟨0, ![]⟩ 32 0#32)))
        (addi t (broadcastInDim ⟨1, ![K]⟩ ![] hs (constantI ⟨0, ![]⟩ 32 nw))) t)) e = i := by
  have h' : (i.val : Int) = (t (ix1 e)).toInt := by
    have := h
    unfold lands at this
    rwa [broadcastInDim_a_a1_apply] at this
  refine Fin.ext ?_
  unfold node
  dsimp only
  rw [broadcastInDim_a_a1_apply, select_apply]
  have hw : Scalar.select (cmpi .slt t (broadcastInDim ⟨1, ![K]⟩ ![] hs (constantI ⟨0, ![]⟩ 32 0#32)) (ix1 e))
      (addi t (broadcastInDim ⟨1, ![K]⟩ ![] hs (constantI ⟨0, ![]⟩ 32 nw)) (ix1 e)) (t (ix1 e)) = t (ix1 e) := by
    show Scalar.select (IntOp.cmpi .slt (t (ix1 e)) (broadcastInDim ⟨1, ![K]⟩ ![] hs (constantI ⟨0, ![]⟩ 32 0#32) (ix1 e)))
      (IntOp.addi (t (ix1 e)) (broadcastInDim ⟨1, ![K]⟩ ![] hs (constantI ⟨0, ![]⟩ 32 nw) (ix1 e))) (t (ix1 e)) = t (ix1 e)
    rw [broadcastInDim_scalar_apply, broadcastInDim_scalar_apply]
    exact wrap_of_nat (t (ix1 e)) nw i.val h'
  rw [hw, ← h']
  have := i.isLt
  simp only [Int.toNat_natCast]
  omega

end Cert.Graph

end
-- ==== Proof.KernelValue.lean ====
/-
  What the kernel computes, read one entry at a time.

  With every buffer followed to the arguments (the boundary walk) and every launch's output array read off its blocks,
  the kernel's result at (p, q) is: the second aggregate at (p, q) times node p's scale plus the bias; the second
  aggregate sums, over the edges landing on p, the second features of the edge's source; those are the rectified
  "first aggregate times the scale plus bias" through the second dense product, times the scale; and the first
  aggregate sums, over the landing edges, the first dense product at the source times the source's scale. This is the
  kernel's side of the abstract two-layer statement of LibAggregationLaw.lean.
-/
import proofs.«181443_j16054587753020_2_alg».proof.Proof.KernelWalk
import proofs.«181443_j16054587753020_2_alg».proof.Proof.Region0
import proofs.«181443_j16054587753020_2_alg».proof.Proof.Region1
import proofs.«181443_j16054587753020_2_alg».proof.Proof.Region2
import proofs.«181443_j16054587753020_2_alg».proof.Proof.LibGraphStages

set_option maxRecDepth 16384

noncomputable section

namespace Cert.KernelIdeal.KValue

open Cert.KernelIdeal Cert.KernelIdeal.Gen Cert.KernelIdeal.Walk Cert.KernelIdeal.Blocks
open Idealize.ShloMosaic Idealize.ShloMosaic.TcCoe Idealize.SL.Sem Idealize.ShloMosaic.ValueIdx
open Cert.Graph Cert.Law Cert.HostOps

theorem nodes_pos : 0 < 100000 := by decide

/-- The graph read off the edge array, and the scale as a function of the node. -/
abbrev L (e : IVec S2x1600000 32) : Fin 100000 → Fin 1700000 → Prop := lands (colV (dstV e))
abbrev gS (e : IVec S2x1600000 32) : Fin 1700000 → Fin 100000 := node nodes_pos (colV (wrapV (srcV e)))
abbrev dS (e : IVec S2x1600000 32) : Fin 100000 → EReal := fun j => scaleV e (ix1 j)

/-- The arrays as functions of literal coordinates. -/
abbrev X (x : FVec Ideal S100000x64 .f32) : Fin 100000 → Fin 64 → EReal := fun j a => x (ix2 j a)
abbrev M1 (W1 : FVec Ideal S64x64 .f32) : Fin 64 → Fin 64 → EReal := fun a k => W1 (ix2 a k)
abbrev B1 (b1 : FVec Ideal S64 .f32) : Fin 64 → EReal := fun k => b1 (ix1 k)
abbrev M2 (W2 : FVec Ideal S64x32 .f32) : Fin 64 → Fin 32 → EReal := fun k c => W2 (ix2 k c)
abbrev B2 (b2 : FVec Ideal S32 .f32) : Fin 32 → EReal := fun c => b2 (ix1 c)

/-- The scale column at row p is node p's scale. -/
theorem scaleCol_apply (e : IVec S2x1600000 32) (p : Fin 100000) : scaleCol e (ix2 p (0 : Fin 1)) = dS e p := by
  unfold scaleCol
  rw [broadcastInDim_a_a1_apply]

/-- The aggregation between launches at (j, k): what lands on j of column k of the rows at the edges' sources. -/
theorem agg64_apply (e : IVec S2x1600000 32) (T : FVec Ideal S100000x64 .bf16) (j : Fin 100000) (k : Fin 64) :
    agg64 (dstV e) (srcV e) T (ix2 j k) = landed (L e) (fun k' => T (ix2 (gS e k') k)) j :=
  plain_stage nodes_pos scatter_S100000x64_S1700000x1_S1700000x64_1_0_0_1 rfl rfl rfl rfl
    gather_S100000x64_S1700000x1_S1700000x64_1_0_n_n_0_1_164_wf bcast_S_S100000x64
    (colV (dstV e)) (colV (wrapV (srcV e))) T bitsLt_bf16_f32 j k

theorem agg32_apply (e : IVec S2x1600000 32) (T : FVec Ideal S100000x32 .bf16) (j : Fin 100000) (q : Fin 32) :
    agg32 (dstV e) (srcV e) T (ix2 j q) = landed (L e) (fun k' => T (ix2 (gS e k') q)) j :=
  plain_stage nodes_pos scatter_S100000x32_S1700000x1_S1700000x32_1_0_0_1 rfl rfl rfl rfl
    gather_S100000x32_S1700000x1_S1700000x32_1_0_n_n_0_1_132_wf bcast_S_S100000x32
    (colV (dstV e)) (colV (wrapV (srcV e))) T bitsLt_bf16_f32 j q

variable (m : (ℓ : Loc nD τ sig) → Buf (Elt Ideal) ℓ) (ρ : Dev nD → PrngReg) (c : Dev nD)

/-- The first launch's output at (j, k): the dense product times node j's scale. -/
theorem feat1_apply (j : Fin 100000) (k : Fin 64) :
    (dat0 (V3 m ρ) c).arrAt 3 cfg0.N (ix2 j k)
      = dense (X (m ((c : Thread nD τ).loc main_arg0))) (M1 (m ((c : Thread nD τ).loc main_arg2))) j k
        * dS (m ((c : Thread nD τ).loc main_arg1)) j := by
  rw [final0 (V3 m ρ) c j k, V3_arg0, V3_arg2, V3_v15, scaleCol_apply]
  rfl

/-- The first aggregate at (j, k). -/
theorem agg1_apply (j : Fin 100000) (k : Fin 64) :
    V5 m ρ c main_v27 (ix2 j k)
      = kAgg1 (L (m ((c : Thread nD τ).loc main_arg1))) (gS (m ((c : Thread nD τ).loc main_arg1)))
          (dS (m ((c : Thread nD τ).loc main_arg1))) (X (m ((c : Thread nD τ).loc main_arg0)))
          (M1 (m ((c : Thread nD τ).loc main_arg2))) j k := by
  rw [V5_v27, agg64_apply]
  unfold kAgg1 landed
  refine congrArg (0 + ·) (Finset.sum_congr rfl fun k' _ => ?_)
  dsimp only
  rw [feat1_apply]

/-- The second launch's output at (j, q): the kernel's second features. -/
theorem feat2_apply (j : Fin 100000) (q : Fin 32) :
    (dat1 (V5 m ρ) c).arrAt 4 cfg1.N (ix2 j q)
      = kFeat2 (L (m ((c : Thread nD τ).loc main_arg1))) (gS (m ((c : Thread nD τ).loc main_arg1)))
          (dS (m ((c : Thread nD τ).loc main_arg1))) (X (m ((c : Thread nD τ).loc main_arg0)))
          (M1 (m ((c : Thread nD τ).loc main_arg2))) (B1 (m ((c : Thread nD τ).loc main_arg3)))
          (M2 (m ((c : Thread nD τ).loc main_arg4))) j q := by
  rw [final1 (V5 m ρ) c j q, V5_v15, V5_arg3, V5_arg4, scaleCol_apply]
  unfold kFeat2
  refine congrArg (· * dS (m ((c : Thread nD τ).loc main_arg1)) j) (Finset.sum_congr rfl fun k _ => ?_)
  rw [agg1_apply]

/-- THE KERNEL'S RESULT at (p, q). -/
theorem out_apply (p : Fin 100000) (q : Fin 32) :
    W8 m ρ c (Proc.devRef .tc main_v40) (ix2 p q)
      = kOut (L (m ((c : Thread nD τ).loc main_arg1))) (gS (m ((c : Thread nD τ).loc main_arg1)))
          (dS (m ((c : Thread nD τ).loc main_arg1))) (X (m ((c : Thread nD τ).loc main_arg0)))
          (M1 (m ((c : Thread nD τ).loc main_arg2))) (B1 (m ((c : Thread nD τ).loc main_arg3)))
          (M2 (m ((c : Thread nD τ).loc main_arg4))) (B2 (m ((c : Thread nD τ).loc main_arg5))) p q := by
  rw [W8_v40, final2 (V7 m ρ) c p q, V7_v39, V7_v15, V7_arg5, scaleCol_apply, agg32_apply]
  unfold kOut
  refine congrArg (· * dS (m ((c : Thread nD τ).loc main_arg1)) p + m ((c : Thread nD τ).loc main_arg5) (ix1 q)) ?_
  unfold landed
  refine congrArg (0 + ·) (Finset.sum_congr rfl fun k' _ => ?_)
  dsimp only
  rw [feat2_apply]

end Cert.KernelIdeal.KValue

end
-- ==== Proof.RefValue.lean ====
/-
  What the reference computes, read one entry at a time.

  The reference's result is a composition of host operations on its six arguments. Named stage by stage: the edges'
  sources and destinations (the two rows of the edge array, each followed by 0 … N − 1 for the self loops), the
  negative-index wrap of each, the in-degree (an accumulating scatter of ones), the scale "reciprocal root of the degree
  where positive, zero elsewhere", the edge weights (the scale gathered at the wrapped source times the scale gathered
  at the wrapped destination), and two layers "dense product, gather the source rows, weigh, scatter to the
  destinations, add the bias" with a rectification between them. Entry (p, q) of the result is the abstract two-layer
  sum of LibAggregationLaw.lean over the graph these index arrays describe.
-/
import proofs.«181443_j16054587753020_2_alg».proof.Proof.RefRun
import proofs.«181443_j16054587753020_2_alg».proof.Proof.LibGraphStages
import proofs.«181443_j16054587753020_2_alg».proof.Proof.LibDense

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.Graph Cert.Law Cert.HostOps

/-- The edges' sources: row 0 of the edge array, then the self loops 0 … N − 1. -/
def srcV (e : IVec S2x1600000 32) : IVec S1700000 32 :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The edges' destinations: row 1 of the edge array, then the self loops. -/
def dstV (e : IVec S2x1600000 32) : IVec S1700000 32 :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- The negative-index wrap: a negative word has N added. -/
def wrapV (v : IVec S1700000 32) : IVec S1700000 32 :=
  select (cmpi .slt v (broadcastInDim S1700000 ![] bcast_S_S1700000 (constantI S_ 32 0#32))) (addi v (broadcastInDim S1700000 ![] bcast_S_S1700000 (constantI S_ 32 100000#32))) v

/-- An index vector written as a [K, 1] column. -/
def colV (v : IVec S1700000 32) : IVec S1700000x1 32 := broadcastInDim S1700000x1 ![0] bcast_S1700000_S1700000x1_0 v

/-- The in-degree: ones scattered to the destinations. -/
def degV (e : IVec S2x1600000 32) : FVec Ideal S100000 .f32 :=
  Host.scatterAdd scatter_S100000_S1700000x1_S1700000_n_0_0_1 (broadcastInDim S100000 ![] bcast_S_S100000 (constant S_ .f32 0x00000000#32)) (colV (dstV e)) (broadcastInDim S1700000 ![] bcast_S_S1700000 (constant S_ .f32 0x3F800000#32))

/-- The per-node scale: the reciprocal root of the degree where it is positive, zero elsewhere. -/
def scaleV (e : IVec S2x1600000 32) : FVec Ideal S100000 .f32 :=
  select (cmpf (F := Ideal) .ogt (degV e) (broadcastInDim S100000 ![] bcast_S_S100000 (constant S_ .f32 0x00000000#32))) (Host.rsqrt (degV e)) (broadcastInDim S100000 ![] bcast_S_S100000 (id (constant S_ .f32 0x00000000#32)))

/-- The edge weights: scale at the wrapped source times scale at the wrapped destination. -/
def nrmV (e : IVec S2x1600000 32) : FVec Ideal S1700000 .f32 :=
  mulf (Host.gather gather_S100000_S1700000x1_S1700000_n_0_n_n_0_1_1 (scaleV e) (colV (wrapV (srcV e)))) (Host.gather gather_S100000_S1700000x1_S1700000_n_0_n_n_0_1_1 (scaleV e) (colV (wrapV (dstV e))))

/-- The first dense product. -/
def xwV (x : FVec Ideal S100000x64 .f32) (W1 : FVec Ideal S64x64 .f32) : FVec Ideal S100000x64 .f32 :=
  Host.dotGeneral dot_S100000x64_S64x64_S100000x64_1_0_0_1_n_n none x W1

/-- The first layer before rectification. -/
def layer1V (x : FVec Ideal S100000x64 .f32) (e : IVec S2x1600000 32) (W1 : FVec Ideal S64x64 .f32) (b1 : FVec Ideal S64 .f32) : FVec Ideal S100000x64 .f32 :=
  addf (Host.scatterAdd scatter_S100000x64_S1700000x1_S1700000x64_1_0_0_1 (broadcastInDim S100000x64 ![] bcast_S_S100000x64 (constant S_ .f32 0x00000000#32)) (colV (dstV e)) (mulf (Host.gather gather_S100000x64_S1700000x1_S1700000x64_1_0_n_n_0_1_164 (xwV x W1) (colV (wrapV (srcV e)))) (broadcastInDim S1700000x64 ![0, 1] bcast_S1700000x1_S1700000x64_0_1 (broadcastInDim S1700000x1 ![0] bcast_S1700000_S1700000x1_0 (nrmV e))))) (broadcastInDim S100000x64 ![0, 1] bcast_S1x64_S100000x64_0_1 (broadcastInDim S1x64 ![1] bcast_S64_S1x64_1 b1))

/-- The second dense product, of the rectified first layer. -/
def feat2V (x : FVec Ideal S100000x64 .f32) (e : IVec S2x1600000 32) (W1 : FVec Ideal S64x64 .f32) (b1 : FVec Ideal S64 .f32) (W2 : FVec Ideal S64x32 .f32) : FVec Ideal S100000x32 .f32 :=
  Host.dotGeneral dot_S100000x64_S64x32_S100000x32_1_0_0_1_n_n none (maximumf (layer1V x e W1 b1) (broadcastInDim S100000x64 ![] bcast_S_S100000x64 (constant S_ .f32 0x00000000#32))) W2

/-- The reference's result array. -/
def outV (x : FVec Ideal S100000x64 .f32) (e : IVec S2x1600000 32) (W1 : FVec Ideal S64x64 .f32) (b1 : FVec Ideal S64 .f32) (W2 : FVec Ideal S64x32 .f32) (b2 : FVec Ideal S32 .f32) : FVec Ideal S100000x32 .f32 :=
  addf (Host.scatterAdd scatter_S100000x32_S1700000x1_S1700000x32_1_0_0_1 (broadcastInDim S100000x32 ![] bcast_S_S100000x32 (constant S_ .f32 0x00000000#32)) (colV (dstV e)) (mulf (Host.gather gather_S100000x32_S1700000x1_S1700000x32_1_0_n_n_0_1_132 (feat2V x e W1 b1 W2) (colV (wrapV (srcV e)))) (broadcastInDim S1700000x32 ![0, 1] bcast_S1700000x1_S1700000x32_0_1 (broadcastInDim S1700000x1 ![0] bcast_S1700000_S1700000x1_0 (nrmV e))))) (broadcastInDim S100000x32 ![0, 1] bcast_S1x32_S100000x32_0_1 (broadcastInDim S1x32 ![1] bcast_S32_S1x32_1 b2))

/-- The run's composed term is the staged composition. -/
theorem res_eq (m : (ℓ : Loc nD τ sig) → Buf (Elt Ideal) ℓ) (c : Dev nD) :
    Cert.ReferenceIdeal.ValueP.res_main_v64 (F := Ideal) m c
      = outV (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := rfl

theorem nodes_pos : 0 < 100000 := by decide

/-- The graph's three readings of the edge array, and the scale as a function of the node. -/
abbrev L (e : IVec S2x1600000 32) : Fin 100000 → Fin 1700000 → Prop := lands (colV (dstV e))
abbrev gS (e : IVec S2x1600000 32) : Fin 1700000 → Fin 100000 := node nodes_pos (colV (wrapV (srcV e)))
abbrev gD (e : IVec S2x1600000 32) : Fin 1700000 → Fin 100000 := node nodes_pos (colV (wrapV (dstV e)))
abbrev dS (e : IVec S2x1600000 32) : Fin 100000 → EReal := fun j => scaleV e (ix1 j)

/-- An edge landing on node i has node i as its wrapped destination. -/
theorem gD_of_lands (e : IVec S2x1600000 32) (i : Fin 100000) (k : Fin 1700000) (h : L e i k) : gD e k = i :=
  wrapped_dest nodes_pos bcast_S_S1700000 bcast_S1700000_S1700000x1_0 (dstV e) 100000#32 i k h

/-- Every node's scale is nonnegative and not +∞. -/
theorem dS_ok (e : IVec S2x1600000 32) (j : Fin 100000) : 0 ≤ dS e j ∧ dS e j ≠ ⊤ := by
  have e0 : (broadcastInDim S100000 ![] bcast_S_S100000 (constant (F := Ideal) S_ .f32 0x00000000#32)) (ix1 j) = 0 :=
    zeros_apply bcast_S_S100000 _
  have e1 : (broadcastInDim S100000 ![] bcast_S_S100000 (id (constant (F := Ideal) S_ .f32 0x00000000#32))) (ix1 j) = 0 :=
    zeros_apply bcast_S_S100000 _
  -- the degree enters only as some extended real at node j
  have key : ∀ g : FVec Ideal S100000 .f32,
      0 ≤ (select (cmpf (F := Ideal) .ogt g (broadcastInDim S100000 ![] bcast_S_S100000 (constant S_ .f32 0x00000000#32))) (Host.rsqrt g) (broadcastInDim S100000 ![] bcast_S_S100000 (id (constant S_ .f32 0x00000000#32)))) (ix1 j)
      ∧ (select (cmpf (F := Ideal) .ogt g (broadcastInDim S100000 ![] bcast_S_S100000 (constant S_ .f32 0x00000000#32))) (Host.rsqrt g) (broadcastInDim S100000 ![] bcast_S_S100000 (id (constant S_ .f32 0x00000000#32)))) (ix1 j) ≠ ⊤ := by
    intro g
    rw [select_apply]
    show 0 ≤ Scalar.select (FloatOps.cmpf (F := Ideal) .ogt (g (ix1 j)) ((broadcastInDim S100000 ![] bcast_S_S100000 (constant (F := Ideal) S_ .f32 0x00000000#32)) (ix1 j)))
        (FloatOps.hostUnary (F := Ideal) .rsqrt (g (ix1 j))) ((broadcastInDim S100000 ![] bcast_S_S100000 (id (constant (F := Ideal) S_ .f32 0x00000000#32))) (ix1 j))
      ∧ Scalar.select (FloatOps.cmpf (F := Ideal) .ogt (g (ix1 j)) ((broadcastInDim S100000 ![] bcast_S_S100000 (constant (F := Ideal) S_ .f32 0x00000000#32)) (ix1 j)))
        (FloatOps.hostUnary (F := Ideal) .rsqrt (g (ix1 j))) ((broadcastInDim S100000 ![] bcast_S_S100000 (id (constant (F := Ideal) S_ .f32 0x00000000#32))) (ix1 j)) ≠ ⊤
    rw [e0, e1]
    exact scale_nonneg_ne_top (g (ix1 j))
  show 0 ≤ scaleV e (ix1 j) ∧ scaleV e (ix1 j) ≠ ⊤
  unfold scaleV
  exact key (degV e)

section
variable (x : FVec Ideal S100000x64 .f32) (e : IVec S2x1600000 32) (W1 : FVec Ideal S64x64 .f32)
  (b1 : FVec Ideal S64 .f32) (W2 : FVec Ideal S64x32 .f32) (b2 : FVec Ideal S32 .f32)

/-- The arrays as functions of literal coordinates. -/
abbrev X : Fin 100000 → Fin 64 → EReal := fun j a => x (ix2 j a)
abbrev M1 : Fin 64 → Fin 64 → EReal := fun a k => W1 (ix2 a k)
abbrev B1 : Fin 64 → EReal := fun k => b1 (ix1 k)
abbrev M2 : Fin 64 → Fin 32 → EReal := fun k c => W2 (ix2 k c)
abbrev B2 : Fin 32 → EReal := fun c => b2 (ix1 c)

theorem nrm_apply (k : Fin 1700000) : nrmV e (ix1 k) = dS e (gS e k) * dS e (gD e k) :=
  norm_stage nodes_pos gather_S100000_S1700000x1_S1700000_n_0_n_n_0_1_1_wf (scaleV e) _ _ k

theorem xw_apply (j : Fin 100000) (k : Fin 64) : xwV x W1 (ix2 j k) = dense (X x) (M1 W1) j k :=
  dotGeneral_plain_apply dot_S100000x64_S64x64_S100000x64_1_0_0_1_n_n none .single rfl rfl
    (fun _ _ => rfl) (fun _ _ => rfl) (fun _ _ => rfl) (fun _ _ => rfl) x W1 j k

theorem layer1_apply (j : Fin 100000) (k : Fin 64) :
    layer1V x e W1 b1 (ix2 j k) = rLayer1 (L e) (gS e) (gD e) (dS e) (X x) (M1 W1) (B1 b1) j k := by
  unfold layer1V rLayer1
  rw [addf_apply, bias_apply]
  refine congrArg (· + b1 (ix1 k)) ?_
  refine (weighted_stage nodes_pos scatter_S100000x64_S1700000x1_S1700000x64_1_0_0_1 rfl rfl rfl rfl
    gather_S100000x64_S1700000x1_S1700000x64_1_0_n_n_0_1_164_wf bcast_S_S100000x64 bcast_S1700000_S1700000x1_0
    bcast_S1700000x1_S1700000x64_0_1 (colV (dstV e)) (colV (wrapV (srcV e))) (xwV x W1) (nrmV e) j k).trans ?_
  unfold landed
  refine congrArg (0 + ·) (Finset.sum_congr rfl fun k' _ => ?_)
  dsimp only
  rw [xw_apply, nrm_apply]

theorem feat2_apply (j : Fin 100000) (c : Fin 32) :
    feat2V x e W1 b1 W2 (ix2 j c) = rFeat2 (L e) (gS e) (gD e) (dS e) (X x) (M1 W1) (B1 b1) (M2 W2) j c := by
  unfold feat2V rFeat2
  refine (dotGeneral_plain_apply dot_S100000x64_S64x32_S100000x32_1_0_0_1_n_n none .single rfl rfl
    (fun _ _ => rfl) (fun _ _ => rfl) (fun _ _ => rfl) (fun _ _ => rfl) _ W2 j c).trans ?_
  refine Finset.sum_congr rfl fun k _ => ?_
  rw [maximumf_apply, layer1_apply, zeros_apply]

theorem out_apply (p : Fin 100000) (q : Fin 32) :
    outV x e W1 b1 W2 b2 (ix2 p q)
      = rOut (L e) (gS e) (gD e) (dS e) (X x) (M1 W1) (B1 b1) (M2 W2) (B2 b2) p q := by
  unfold outV rOut
  rw [addf_apply, bias_apply]
  refine congrArg (· + b2 (ix1 q)) ?_
  refine (weighted_stage nodes_pos scatter_S100000x32_S1700000x1_S1700000x32_1_0_0_1 rfl rfl rfl rfl
    gather_S100000x32_S1700000x1_S1700000x32_1_0_n_n_0_1_132_wf bcast_S_S100000x32 bcast_S1700000_S1700000x1_0
    bcast_S1700000x1_S1700000x32_0_1 (colV (dstV e)) (colV (wrapV (srcV e))) (feat2V x e W1 b1 W2) (nrmV e) p q).trans ?_
  unfold landed
  refine congrArg (0 + ·) (Finset.sum_congr rfl fun k' _ => ?_)
  dsimp only
  rw [feat2_apply, nrm_apply]

end

end Cert.ReferenceIdeal.RefValue

end
-- ==== Proof.lean ====
/-
  The kernel and its reference compute one function.

  Both programs are a two-layer graph convolution over N = 100000 nodes and K = 1700000 edges (the given edges and one
  self loop per node): a dense product, an aggregation along the edges normalized by 1/√deg at both ends, a bias, a
  rectification, and the same again. The reference weighs every edge's message by the product of the two ends'
  scales; the kernel scales each node's features once before the edges read them and the aggregate once after
  (inside its three launches), and keeps the gathered rows in a narrower float format between launches. On the
  extended reals the two agree entry by entry: a change of float format is the identity, a sum does not depend on its
  order, and multiplication by a node's scale — a nonnegative number other than +∞, whatever the degree is —
  distributes over the sum of what lands on the node (LibAggregationLaw.lean). Nothing is asked of the edge indices: negative and
  out-of-range words are wrapped, clamped and dropped by the same host operations in both programs, and an edge that
  does land on a node has that node as its destination (LibGraphStages.lean). The precondition is not used.

  The three frames are the generated ones (the reference's is its run with the result dropped); the kernel's
  idealization rewrote nothing, so there is nothing to preserve.
-/
import proofs.«181443_j16054587753020_2_alg».proof.Defs
import proofs.«181443_j16054587753020_2_alg».proof.Proof.Gen.Kernel
import proofs.«181443_j16054587753020_2_alg».proof.Proof.Gen.Kernel.Skeleton
import proofs.«181443_j16054587753020_2_alg».proof.Proof.Gen.Kernel.Launch
import proofs.«181443_j16054587753020_2_alg».proof.Proof.Gen.Kernel.Points
import proofs.«181443_j16054587753020_2_alg».proof.Proof.Gen.Kernel.Frame
import proofs.«181443_j16054587753020_2_alg».proof.Proof.Gen.KernelIdeal
import proofs.«181443_j16054587753020_2_alg».proof.Proof.Gen.KernelIdeal.Skeleton
import proofs.«181443_j16054587753020_2_alg».proof.Proof.Gen.KernelIdeal.Launch
import proofs.«181443_j16054587753020_2_alg».proof.Proof.Gen.KernelIdeal.Points
import proofs.«181443_j16054587753020_2_alg».proof.Proof.Gen.KernelIdeal.Frame
import proofs.«181443_j16054587753020_2_alg».proof.Proof.Gen.ReferenceIdeal
import proofs.«181443_j16054587753020_2_alg».proof.Proof.Gen.Pre_finite_inputs
import proofs.«181443_j16054587753020_2_alg».proof.Proof.KernelValue
import proofs.«181443_j16054587753020_2_alg».proof.Proof.RefValue
import proofs.«181443_j16054587753020_2_alg».proof.Proof.LibAggregationLaw
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.Law

/-- The two results agree as arrays: at every entry the reference's two-layer sum is the kernel's (the aggregation law
    at each layer), the graph and the scale being read off the same edge array by the same host operations. -/
theorem value_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v64 (F := Ideal) m' c
      = Cert.KernelIdeal.Gen.W8 m ρ c (Proc.devRef .tc Cert.KernelIdeal.main_v40) := by
  funext i
  obtain ⟨p, q, rfl⟩ : ∃ (p : Fin 100000) (q : Fin 32), i = ix2 p q := ⟨i 0, i 1, eq_ix2 i⟩
  refine (congrFun (Cert.ReferenceIdeal.RefValue.res_eq m' c) (ix2 p q)).trans ?_
  rw [Cert.ReferenceIdeal.RefValue.out_apply, h0, h1, h2, h3, h4, h5]
  refine Eq.trans ?_ (Cert.KernelIdeal.KValue.out_apply m ρ c p q).symm
  exact (kOut_eq_rOut
    (Cert.KernelIdeal.KValue.L (m ((c.tc : Thread Cert.KernelIdeal.nD Cert.KernelIdeal.τ).loc Cert.KernelIdeal.main_arg1)))
    (Cert.KernelIdeal.KValue.gS (m ((c.tc : Thread Cert.KernelIdeal.nD Cert.KernelIdeal.τ).loc Cert.KernelIdeal.main_arg1)))
    (Cert.ReferenceIdeal.RefValue.gD (m ((c.tc : Thread Cert.KernelIdeal.nD Cert.KernelIdeal.τ).loc Cert.KernelIdeal.main_arg1)))
    (fun i k h => Cert.ReferenceIdeal.RefValue.gD_of_lands _ i k h)
    (Cert.KernelIdeal.KValue.dS (m ((c.tc : Thread Cert.KernelIdeal.nD Cert.KernelIdeal.τ).loc Cert.KernelIdeal.main_arg1)))
    (fun j => Cert.ReferenceIdeal.RefValue.dS_ok _ j)
    (Cert.KernelIdeal.KValue.X (m ((c.tc : Thread Cert.KernelIdeal.nD Cert.KernelIdeal.τ).loc Cert.KernelIdeal.main_arg0)))
    (Cert.KernelIdeal.KValue.M1 (m ((c.tc : Thread Cert.KernelIdeal.nD Cert.KernelIdeal.τ).loc Cert.KernelIdeal.main_arg2)))
    (Cert.KernelIdeal.KValue.B1 (m ((c.tc : Thread Cert.KernelIdeal.nD Cert.KernelIdeal.τ).loc Cert.KernelIdeal.main_arg3)))
    (Cert.KernelIdeal.KValue.M2 (m ((c.tc : Thread Cert.KernelIdeal.nD Cert.KernelIdeal.τ).loc Cert.KernelIdeal.main_arg4)))
    (Cert.KernelIdeal.KValue.B2 (m ((c.tc : Thread Cert.KernelIdeal.nD Cert.KernelIdeal.τ).loc Cert.KernelIdeal.main_arg5)))
    p q).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values the kernel's result array ends at what its last launch leaves (the run with the result named),
    the reference's at its operations' composed term; from arguments that agree the two arrays are equal. -/
theorem algebraic : Cert.algebraic_KernelIdeal_ReferenceIdeal := by
  intro m ρ m' ρ' _ hagree
  refine ⟨fun c => Cert.KernelIdeal.Gen.W8 m ρ c (Proc.devRef .tc Cert.KernelIdeal.main_v40),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  exact value_eq m ρ m' c (hagree c).1 (hagree c).2.1 (hagree c).2.2.1 (hagree c).2.2.2.1 (hagree c).2.2.2.2.1
    (hagree c).2.2.2.2.2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
